-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x256x256 : Shape := ⟨4, ![1, 128, 256, 256]⟩
abbrev S65536x9 : Shape := ⟨2, ![65536, 9]⟩
abbrev S_ : Shape := ⟨0, ![]⟩

class Facts : Prop where
  bcast_S_S1x128x256x256 : S_.BroadcastsInDim S1x128x256x256 (![] : Fin 0 → Fin S1x128x256x256.rank)
  reducesTo_S1x128x256x256_S_d0_1_2_3 : S1x128x256x256.ReducesTo [0, 1, 2, 3] S_
  h_S_ : 0 < S_.numel
  bcast_S_S65536x9 : S_.BroadcastsInDim S65536x9 (![] : Fin 0 → Fin S65536x9.rank)
  reducesTo_S65536x9_S_d0_1 : S65536x9.ReducesTo [0, 1] S_

variable [Facts]

def fn {F : FTy → Type} [FloatOps F] (main_arg0 : FVec F S1x128x256x256 .f32) (main_arg1 : FVec F S65536x9 .f32) : IVec S_ 1 :=
  let main_v0 : FVec F S1x128x256x256 .f32 := Host.absf main_arg0
  let main_cst : FVec F S_ .f32 := constant S_ .f32 0x7F800000#32
  let main_v1 : FVec F S1x128x256x256 .f32 := broadcastInDim S1x128x256x256 ![] bcast_S_S1x128x256x256 main_cst
  let main_v2 : IVec S1x128x256x256 1 := cmpf .olt main_v0 main_v1
  let main_c : IVec S_ 1 := constantI S_ 1 1#1
  let main_v3 : IVec S_ 1 := (fun x v => Host.reduce IntOp.andi x v reducesTo_S1x128x256x256_S_d0_1_2_3 h_S_) main_v2 main_c
  let main_v4 : FVec F S65536x9 .f32 := Host.absf main_arg1
  let main_cst_0 : FVec F S_ .f32 := constant S_ .f32 0x7F800000#32
  let main_v5 : FVec F S65536x9 .f32 := broadcastInDim S65536x9 ![] bcast_S_S65536x9 main_cst_0
  let main_v6 : IVec S65536x9 1 := cmpf .olt main_v4 main_v5
  let main_c_1 : IVec S_ 1 := constantI S_ 1 1#1
  let main_v7 : IVec S_ 1 := (fun x v => Host.reduce IntOp.andi x v reducesTo_S65536x9_S_d0_1 h_S_) main_v6 main_c_1
  let main_v8 : IVec S_ 1 := andi main_v3 main_v7
  main_v8
-- ==== Kernel.lean ====
abbrev S1x128x256x256 : Shape := ⟨4, ![1, 128, 256, 256]⟩
abbrev S65536x9 : Shape := ⟨2, ![65536, 9]⟩
abbrev S32 : Shape := ⟨1, ![32]⟩
abbrev S128x256x256 : Shape := ⟨3, ![128, 256, 256]⟩
abbrev S_ : Shape := ⟨0, ![]⟩
abbrev S128x258x256 : Shape := ⟨3, ![128, 258, 256]⟩
abbrev S32x1 : Shape := ⟨2, ![32, 1]⟩
abbrev S128x32x256 : Shape := ⟨3, ![128, 32, 256]⟩
abbrev S32x128x256 : Shape := ⟨3, ![32, 128, 256]⟩
abbrev S256x256x9 : Shape := ⟨3, ![256, 256, 9]⟩
abbrev S9x256x256 : Shape := ⟨3, ![9, 256, 256]⟩
abbrev S128x8x256 : Shape := ⟨3, ![128, 8, 256]⟩
abbrev S1x128x256 : Shape := ⟨3, ![1, 128, 256]⟩
abbrev S4x256x256 : Shape := ⟨3, ![4, 256, 256]⟩
abbrev S128x256 : Shape := ⟨2, ![128, 256]⟩
abbrev S128x1x256 : Shape := ⟨3, ![128, 1, 256]⟩
abbrev S128x10x256 : Shape := ⟨3, ![128, 10, 256]⟩
abbrev S128x10x1 : Shape := ⟨3, ![128, 10, 1]⟩
abbrev S128x10x255 : Shape := ⟨3, ![128, 10, 255]⟩
abbrev S128x10x128x2 : Shape := ⟨4, ![128, 10, 128, 2]⟩
abbrev S10x128x2x128 : Shape := ⟨4, ![10, 128, 2, 128]⟩
abbrev S10x128x256 : Shape := ⟨3, ![10, 128, 256]⟩
abbrev S9x128x256 : Shape := ⟨3, ![9, 128, 256]⟩

abbrev nBuf : Space → Nat
  | .hbm => 28
  | .vmem => 9
  | .smem => 0
  | _ => 0

abbrev bufTy : (tb : Table) → Fin (tcTables nBuf tb) → BufTy
  | .hbm, ⟨0, _⟩ => ⟨S1x128x256x256, .f32⟩
  | .hbm, ⟨1, _⟩ => ⟨S65536x9, .f32⟩
  | .hbm, ⟨2, _⟩ => ⟨S32, .i32⟩
  | .hbm, ⟨3, _⟩ => ⟨S32, .i1⟩
  | .hbm, ⟨4, _⟩ => ⟨S32, .i32⟩
  | .hbm, ⟨5, _⟩ => ⟨S32, .i1⟩
  | .hbm, ⟨6, _⟩ => ⟨S128x256x256, .f32⟩
  | .hbm, ⟨7, _⟩ => ⟨S_, .i32⟩
  | .hbm, ⟨8, _⟩ => ⟨S_, .f32⟩
  | .hbm, ⟨9, _⟩ => ⟨S128x258x256, .f32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S128x32x256, .f32⟩
  | .hbm, ⟨16, _⟩ => ⟨S32x128x256, .f32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S128x32x256, .f32⟩
  | .hbm, ⟨23, _⟩ => ⟨S32x128x256, .f32⟩
  | .hbm, ⟨24, _⟩ => ⟨S256x256x9, .f32⟩
  | .hbm, ⟨25, _⟩ => ⟨S9x256x256, .f32⟩
  | .hbm, ⟨26, _⟩ => ⟨S128x256x256, .f32⟩
  | .hbm, ⟨27, _⟩ => ⟨S1x128x256x256, .f32⟩
  | .local _ .vmem, ⟨0, _⟩ => ⟨S128x8x256, .f32⟩
  | .local _ .vmem, ⟨1, _⟩ => ⟨S128x8x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S9x256x256, .f32⟩
  | .local _ .vmem, ⟨7, _⟩ => ⟨S4x256x256, .f32⟩
  | .local _ .vmem, ⟨8, _⟩ => ⟨S4x256x256, .f32⟩
  | _, _ => ⟨S1x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_c_3 : Ref sig .tc := ⟨.hbm, 7, rfl⟩
abbrev main_call0_v0 : Ref sig .tc := ⟨.hbm, 8, rfl⟩
abbrev main_v1 : Ref sig .tc := ⟨.hbm, 9, rfl⟩
abbrev main_c_4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x128x256x256_S128x256x256 : S1x128x256x256.ShapeCasts S128x256x256
  pads_S128x256x256_S128x258x256_000_110_000 : S128x256x256.Pads (![0, 1, 0] : Fin 3 → Nat) ![0, 1, 0] ![0, 0, 0] S128x258x256
  h_S_ : 0 < S_.numel
  bcast_S_S32 : S_.BroadcastsInDim S32 (![] : Fin 0 → Fin S32.rank)
  bcast_S32_S32x1_0 : S32.BroadcastsInDim S32x1 (![0] : Fin 1 → Fin S32x1.rank)
  transposes_S128x32x256_S32x128x256_1_0_2 : S128x32x256.Transposes [1, 0, 2] S32x128x256
  shapeCasts_S65536x9_S256x256x9 : S65536x9.ShapeCasts S256x256x9
  transposes_S256x256x9_S9x256x256_2_0_1 : S256x256x9.Transposes [2, 0, 1] S9x256x256
  inb_S128x8x256_S128x8x256_0_0_0 : ∀ a, (![0, 0, 0] : Fin 3 → Nat) a + S128x8x256.size a ≤ S128x8x256.size a
  h_S128x8x256 : 0 < S128x8x256.numel
  shapeCasts_S128x8x256_S128x8x256 : S128x8x256.ShapeCasts S128x8x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S128x1x256 : S128x256.ShapeCasts S128x1x256
  concatenates_S128x1x256_S128x8x256_S128x1x256_S128x10x256_d1 : Shape.Concatenates [S128x1x256, S128x8x256, S128x1x256] S128x10x256 1
  slices_S128x10x256_o0_0_0_S128x10x255 : S128x10x256.Slices ![0, 0, 0] S128x10x255
  concatenates_S128x10x1_S128x10x255_S128x10x256_d2 : Shape.Concatenates [S128x10x1, S128x10x255] S128x10x256 2
  slices_S128x10x256_o0_0_1_S128x10x255 : S128x10x256.Slices ![0, 0, 1] S128x10x255
  concatenates_S128x10x255_S128x10x1_S128x10x256_d2 : Shape.Concatenates [S128x10x255, S128x10x1] S128x10x256 2
  shapeCasts_S128x10x256_S128x10x128x2 : S128x10x256.ShapeCasts S128x10x128x2
  transposes_S128x10x128x2_p1_2_3_0_S10x128x2x128 : S128x10x128x2.Transposes [1, 2, 3, 0] S10x128x2x128
  shapeCasts_S10x128x2x128_S10x128x256 : S10x128x2x128.ShapeCasts S10x128x256
  inb_S9x256x256_S9x128x256_0_0_0 : ∀ a, (![0, 0, 0] : Fin 3 → Nat) a + S9x128x256.size a ≤ S9x256x256.size a
  h_S9x128x256 : 0 < S9x128x256.numel
  shapeCasts_S9x128x256_S9x128x256 : S9x128x256.ShapeCasts S9x128x256
  slices_S10x128x256_o0_0_0_S1x128x256 : S10x128x256.Slices ![0, 0, 0] S1x128x256
  slices_S9x128x256_o0_0_0_S1x128x256 : S9x128x256.Slices ![0, 0, 0] S1x128x256
  slices_S9x128x256_o1_0_0_S1x128x256 : S9x128x256.Slices ![1, 0, 0] S1x128x256
  slices_S9x128x256_o2_0_0_S1x128x256 : S9x128x256.Slices ![2, 0, 0] S1x128x256
  slices_S10x128x256_o1_0_0_S1x128x256 : S10x128x256.Slices ![1, 0, 0] S1x128x256
  slices_S9x128x256_o3_0_0_S1x128x256 : S9x128x256.Slices ![3, 0, 0] S1x128x256
  slices_S9x128x256_o4_0_0_S1x128x256 : S9x128x256.Slices ![4, 0, 0] S1x128x256
  slices_S9x128x256_o5_0_0_S1x128x256 : S9x128x256.Slices ![5, 0, 0] S1x128x256
  slices_S10x128x256_o2_0_0_S1x128x256 : S10x128x256.Slices ![2, 0, 0] S1x128x256
  slices_S9x128x256_o6_0_0_S1x128x256 : S9x128x256.Slices ![6, 0, 0] S1x128x256
  slices_S9x128x256_o7_0_0_S1x128x256 : S9x128x256.Slices ![7, 0, 0] S1x128x256
  slices_S9x128x256_o8_0_0_S1x128x256 : S9x128x256.Slices ![8, 0, 0] S1x128x256
  inb_S4x256x256_S1x128x256_0_0_0 : ∀ a, (![0, 0, 0] : Fin 3 → Nat) a + S1x128x256.size a ≤ S4x256x256.size a
  shapeCasts_S128x256_S1x128x256 : S128x256.ShapeCasts S1x128x256
  inb_S9x256x256_S9x128x256_0_128_0 : ∀ a, (![0, 128, 0] : Fin 3 → Nat) a + S9x128x256.size a ≤ S9x256x256.size a
  slices_S10x128x256_o3_0_0_S1x128x256 : S10x128x256.Slices ![3, 0, 0] S1x128x256
  inb_S4x256x256_S1x128x256_0_128_0 : ∀ a, (![0, 128, 0] : Fin 3 → Nat) a + S1x128x256.size a ≤ S4x256x256.size a
  slices_S10x128x256_o4_0_0_S1x128x256 : S10x128x256.Slices ![4, 0, 0] S1x128x256
  inb_S4x256x256_S1x128x256_1_0_0 : ∀ a, (![1, 0, 0] : Fin 3 → Nat) a + S1x128x256.size a ≤ S4x256x256.size a
  slices_S10x128x256_o5_0_0_S1x128x256 : S10x128x256.Slices ![5, 0, 0] S1x128x256
  inb_S4x256x256_S1x128x256_1_128_0 : ∀ a, (![1, 128, 0] : Fin 3 → Nat) a + S1x128x256.size a ≤ S4x256x256.size a
  slices_S10x128x256_o6_0_0_S1x128x256 : S10x128x256.Slices ![6, 0, 0] S1x128x256
  inb_S4x256x256_S1x128x256_2_0_0 : ∀ a, (![2, 0, 0] : Fin 3 → Nat) a + S1x128x256.size a ≤ S4x256x256.size a
  slices_S10x128x256_o7_0_0_S1x128x256 : S10x128x256.Slices ![7, 0, 0] S1x128x256
  inb_S4x256x256_S1x128x256_2_128_0 : ∀ a, (![2, 128, 0] : Fin 3 → Nat) a + S1x128x256.size a ≤ S4x256x256.size a
  slices_S10x128x256_o8_0_0_S1x128x256 : S10x128x256.Slices ![8, 0, 0] S1x128x256
  inb_S4x256x256_S1x128x256_3_0_0 : ∀ a, (![3, 0, 0] : Fin 3 → Nat) a + S1x128x256.size a ≤ S4x256x256.size a
  slices_S10x128x256_o9_0_0_S1x128x256 : S10x128x256.Slices ![9, 0, 0] S1x128x256
  inb_S4x256x256_S1x128x256_3_128_0 : ∀ a, (![3, 128, 0] : Fin 3 → Nat) a + S1x128x256.size a ≤ S4x256x256.size a
  bcast_S128x256x256_S1x128x256x256_1_2_3 : S128x256x256.BroadcastsInDim S1x128x256x256 (![1, 2, 3] : Fin 3 → Fin S1x128x256x256.rank)
  gather_S128x258x256_S32x1_S128x32x256_02_1_n_n_1_1_1281256_wf : GatherDims.WF S128x258x256 S32x1 S128x32x256 [0, 2] [1] [] [1] [] 1 ![128, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x256.size a ≤ S128x256x256.size a
  hwx0_0 : ∀ i : grid0.Coords, EltTy.bits .f32 = 32 ∨ (Rect.block (s := S128x256x256) S128x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S32x128x256.size a
  hwx0_1 : ∀ i : grid0.Coords, EltTy.bits .f32 = 32 ∨ (Rect.block (s := S32x128x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S32x128x256.size a
  hwx0_2 : ∀ i : grid0.Coords, EltTy.bits .f32 = 32 ∨ (Rect.block (s := S32x128x256) S1x128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x256x256.size a ≤ S9x256x256.size a
  hwx0_3 : ∀ i : grid0.Coords, EltTy.bits .f32 = 32 ∨ (Rect.block (s := S9x256x256) S9x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S128x256x256.size a
  hwx0_4 : ∀ i : grid0.Coords, EltTy.bits .f32 = 32 ∨ (Rect.block (s := S128x256x256) S4x256x256.size (cc0_transform_4 i) (hinb0_4 i)).WholeWords (EltTy.packing .f32)

variable [Facts₀]

def gather_S128x258x256_S32x1_S128x32x256_02_1_n_n_1_1_1281256 : GatherDims S128x258x256 S32x1 S128x32x256 where
  offsetDims := [0, 2]
  collapsedSliceDims := [1]
  operandBatchingDims := []
  startIndicesBatchingDims := []
  startIndexMap := [1]
  indexVectorDim := 1
  sliceSizes := ![128, 1, 256]
  wf := gather_S128x258x256_S32x1_S128x32x256_02_1_n_n_1_1_1281256_wf

abbrev win0_0 : Pipeline.Window sig grid0 :=
  Pipeline.Window.ofSpec (Memref.whole main_v0) S128x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S9x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S4x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x128x256x256 : Shape := ⟨4, ![1, 128, 256, 256]⟩
abbrev S65536x9 : Shape := ⟨2, ![65536, 9]⟩
abbrev S_ : Shape := ⟨0, ![]⟩
abbrev S1x128x258x258 : Shape := ⟨4, ![1, 128, 258, 258]⟩
abbrev S1x128x1x256x256 : Shape := ⟨5, ![1, 128, 1, 256, 256]⟩
abbrev S1x128x9x256x256 : Shape := ⟨5, ![1, 128, 9, 256, 256]⟩
abbrev S1x1152x65536 : Shape := ⟨3, ![1, 1152, 65536]⟩
abbrev S1x65536x1152 : Shape := ⟨3, ![1, 65536, 1152]⟩
abbrev S1x128x65536x9 : Shape := ⟨4, ![1, 128, 65536, 9]⟩
abbrev S1x1x65536x9 : Shape := ⟨4, ![1, 1, 65536, 9]⟩
abbrev S1x128x65536 : Shape := ⟨3, ![1, 128, 65536]⟩

abbrev nBuf : Space → Nat
  | .hbm => 33
  | .vmem => 0
  | .smem => 0
  | _ => 0

abbrev bufTy : (tb : Table) → Fin (tcTables nBuf tb) → BufTy
  | .hbm, ⟨0, _⟩ => ⟨S1x128x256x256, .f32⟩
  | .hbm, ⟨1, _⟩ => ⟨S65536x9, .f32⟩
  | .hbm, ⟨2, _⟩ => ⟨S_, .i32⟩
  | .hbm, ⟨3, _⟩ => ⟨S_, .f32⟩
  | .hbm, ⟨4, _⟩ => ⟨S1x128x258x258, .f32⟩
  | .hbm, ⟨5, _⟩ => ⟨S1x128x256x256, .f32⟩
  | .hbm, ⟨6, _⟩ => ⟨S1x128x256x256, .f32⟩
  | .hbm, ⟨7, _⟩ => ⟨S1x128x256x256, .f32⟩
  | .hbm, ⟨8, _⟩ => ⟨S1x128x256x256, .f32⟩
  | .hbm, ⟨9, _⟩ => ⟨S1x128x256x256, .f32⟩
  | .hbm, ⟨10, _⟩ => ⟨S1x128x256x256, .f32⟩
  | .hbm, ⟨11, _⟩ => ⟨S1x128x256x256, .f32⟩
  | .hbm, ⟨12, _⟩ => ⟨S1x128x256x256, .f32⟩
  | .hbm, ⟨13, _⟩ => ⟨S1x128x256x256, .f32⟩
  | .hbm, ⟨14, _⟩ => ⟨S1x128x1x256x256, .f32⟩
  | .hbm, ⟨15, _⟩ => ⟨S1x128x1x256x256, .f32⟩
  | .hbm, ⟨16, _⟩ => ⟨S1x128x1x256x256, .f32⟩
  | .hbm, ⟨17, _⟩ => ⟨S1x128x1x256x256, .f32⟩
  | .hbm, ⟨18, _⟩ => ⟨S1x128x1x256x256, .f32⟩
  | .hbm, ⟨19, _⟩ => ⟨S1x128x1x256x256, .f32⟩
  | .hbm, ⟨20, _⟩ => ⟨S1x128x1x256x256, .f32⟩
  | .hbm, ⟨21, _⟩ => ⟨S1x128x1x256x256, .f32⟩
  | .hbm, ⟨22, _⟩ => ⟨S1x128x1x256x256, .f32⟩
  | .hbm, ⟨23, _⟩ => ⟨S1x128x9x256x256, .f32⟩
  | .hbm, ⟨24, _⟩ => ⟨S1x1152x65536, .f32⟩
  | .hbm, ⟨25, _⟩ => ⟨S1x65536x1152, .f32⟩
  | .hbm, ⟨26, _⟩ => ⟨S1x128x65536x9, .f32⟩
  | .hbm, ⟨27, _⟩ => ⟨S1x1x65536x9, .f32⟩
  | .hbm, ⟨28, _⟩ => ⟨S1x128x65536x9, .f32⟩
  | .hbm, ⟨29, _⟩ => ⟨S1x128x65536x9, .f32⟩
  | .hbm, ⟨30, _⟩ => ⟨S_, .f32⟩
  | .hbm, ⟨31, _⟩ => ⟨S1x128x65536, .f32⟩
  | .hbm, ⟨32, _⟩ => ⟨S1x128x256x256, .f32⟩
  | _, _ => ⟨S1x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]

class Facts₀ : Prop where
  pads_S1x128x256x256_S1x128x258x258_000_000_110_110 : S1x128x256x256.Pads (![0, 0, 1, 1] : Fin 4 → Nat) ![0, 0, 1, 1] ![0, 0, 0, 0] S1x128x258x258
  h_S_ : 0 < S_.numel
  slices_S1x128x258x258_S1x128x256x256_0_0_0_0 : S1x128x258x258.Slices ![0, 0, 0, 0] S1x128x256x256
  slices_S1x128x258x258_S1x128x256x256_0_0_0_1 : S1x128x258x258.Slices ![0, 0, 0, 1] S1x128x256x256
  slices_S1x128x258x258_S1x128x256x256_0_0_0_2 : S1x128x258x258.Slices ![0, 0, 0, 2] S1x128x256x256
  slices_S1x128x258x258_S1x128x256x256_0_0_1_0 : S1x128x258x258.Slices ![0, 0, 1, 0] S1x128x256x256
  slices_S1x128x258x258_S1x128x256x256_0_0_1_1 : S1x128x258x258.Slices ![0, 0, 1, 1] S1x128x256x256
  slices_S1x128x258x258_S1x128x256x256_0_0_1_2 : S1x128x258x258.Slices ![0, 0, 1, 2] S1x128x256x256
  slices_S1x128x258x258_S1x128x256x256_0_0_2_0 : S1x128x258x258.Slices ![0, 0, 2, 0] S1x128x256x256
  slices_S1x128x258x258_S1x128x256x256_0_0_2_1 : S1x128x258x258.Slices ![0, 0, 2, 1] S1x128x256x256
  slices_S1x128x258x258_S1x128x256x256_0_0_2_2 : S1x128x258x258.Slices ![0, 0, 2, 2] S1x128x256x256
  bcast_S1x128x256x256_S1x128x1x256x256_0_1_3_4 : S1x128x256x256.BroadcastsInDim S1x128x1x256x256 (![0, 1, 3, 4] : Fin 4 → Fin S1x128x1x256x256.rank)
  concatenates_S1x128x1x256x256_S1x128x1x256x256_S1x128x1x256x256_S1x128x1x256x256_S1x128x1x256x256_S1x128x1x256x256_S1x128x1x256x256_S1x128x1x256x256_S1x128x1x256x256_S1x128x9x256x256_d2 : Shape.Concatenates [S1x128x1x256x256, S1x128x1x256x256, S1x128x1x256x256, S1x128x1x256x256, S1x128x1x256x256, S1x128x1x256x256, S1x128x1x256x256, S1x128x1x256x256, S1x128x1x256x256] S1x128x9x256x256 2
  shapeCasts_S1x128x9x256x256_S1x1152x65536 : S1x128x9x256x256.ShapeCasts S1x1152x65536
  transposes_S1x1152x65536_S1x65536x1152_0_2_1 : S1x1152x65536.Transposes [0, 2, 1] S1x65536x1152
  shapeCasts_S1x65536x1152_S1x128x65536x9 : S1x65536x1152.ShapeCasts S1x128x65536x9
  bcast_S65536x9_S1x1x65536x9_2_3 : S65536x9.BroadcastsInDim S1x1x65536x9 (![2, 3] : Fin 2 → Fin S1x1x65536x9.rank)
  bcast_S1x1x65536x9_S1x128x65536x9_0_1_2_3 : S1x1x65536x9.BroadcastsInDim S1x128x65536x9 (![0, 1, 2, 3] : Fin 4 → Fin S1x128x65536x9.rank)
  reducesTo_S1x128x65536x9_S1x128x65536_d3 : S1x128x65536x9.ReducesTo [3] S1x128x65536
  shapeCasts_S1x128x65536_S1x128x256x256 : S1x128x65536.ShapeCasts S1x128x256x256

variable [Facts₀]

class Facts : Prop extends Facts₀ where

variable [Facts]
-- ==== Proof.Spec.lean ====
/-
  The function both programs compute.

  The input is an image `X[0, c, h, w]` (128 channels, 256 × 256) and a table `Wt[l, k]` of nine weights per output
  position `l = oh · 256 + ow`. Unfolding the image into 3 × 3 patches, transposing, and then re-reading the flat
  buffer with the shape (128, 65536, 9) — a reshape that does not undo the transpose — makes output entry
  `(c, oh, ow)` read the patch of INPUT channel `ow mod 128` centred at row `2 c + oh / 128` and column
  `2 (oh mod 128) + ow / 128`: with `P` the image bordered by one ring of zeros (padded coordinates, so the centre
  of the patch is at `+1` on both axes),

      result[0, c, oh, ow] = Σ_{k < 9}  P[ow mod 128, 2 c + oh / 128 + k / 3, 2 (oh mod 128) + ow / 128 + k mod 3] · Wt[oh · 256 + ow, k].

  Everything is over the extended reals; the sum is a finite sum there (addition is commutative and associative),
  and the zero border multiplies a weight to zero whatever the weight is.
-/
import Idealize.ShloMosaic.PureOps.Ideal
import Idealize.ShloMosaic.Lib.ValueIdx

noncomputable section

open scoped BigOperators

namespace Cert.LocalConv

open Idealize.ShloMosaic Idealize.ShloMosaic.ValueIdx

/-- The image's shape. -/
abbrev SIn : Shape := ⟨4, ![1, 128, 256, 256]⟩
/-- The weight table's shape. -/
abbrev SW : Shape := ⟨2, ![65536, 9]⟩

/-- The image with a ring of zeros one entry wide around its two spatial axes, read at PADDED coordinates
    `h, w ∈ [0, 258)`: entry `(h, w)` is the image's `(h − 1, w − 1)` inside, zero on the ring (and beyond). -/
def padded (X : SIn.Idx → EReal) (c : Fin 128) (h w : Nat) : EReal :=
  if hh : (1 ≤ h ∧ h ≤ 256) ∧ (1 ≤ w ∧ w ≤ 256) then
    X (ix4 (0 : Fin 1) c (⟨h - 1, by omega⟩ : Fin 256) (⟨w - 1, by omega⟩ : Fin 256))
  else 0

theorem padded_inside (X : SIn.Idx → EReal) (c : Fin 128) (h w : Fin 256) :
    padded X c (h.val + 1) (w.val + 1) = X (ix4 (0 : Fin 1) c h w) := by
  have hh := h.isLt; have hw := w.isLt
  unfold padded
  rw [dif_pos ⟨⟨by omega, by omega⟩, ⟨by omega, by omega⟩⟩]
  rfl

theorem padded_row_out (X : SIn.Idx → EReal) (c : Fin 128) (h w : Nat) (hh : ¬(1 ≤ h ∧ h ≤ 256)) :
    padded X c h w = 0 := by
  unfold padded
  rw [dif_neg fun H => hh H.1]

theorem padded_col_out (X : SIn.Idx → EReal) (c : Fin 128) (h w : Nat) (hw : ¬(1 ≤ w ∧ w ≤ 256)) :
    padded X c h w = 0 := by
  unfold padded
  rw [dif_neg fun H => hw H.2]

/-- The weight of tap `k` at output position `(oh, ow)`. -/
def weightAt (Wt : SW.Idx → EReal) (oh ow : Fin 256) (k : Fin 9) : EReal :=
  Wt (ix2 (⟨oh.val * 256 + ow.val, by have := oh.isLt; have := ow.isLt; omega⟩ : Fin 65536) k)

/-- Output entry `(c, oh, ow)`: the nine taps around padded position `(2 c + oh / 128, 2 (oh mod 128) + ow / 128)` of
    input channel `ow mod 128`, each times its weight at `(oh, ow)`. -/
def conv (X : SIn.Idx → EReal) (Wt : SW.Idx → EReal) (c : Fin 128) (oh ow : Fin 256) : EReal :=
  ∑ k : Fin 9, padded X (⟨ow.val % 128, Nat.mod_lt _ (by decide)⟩ : Fin 128) (2 * c.val + oh.val / 128 + k.val / 3)
      (2 * (oh.val % 128) + ow.val / 128 + k.val % 3) * weightAt Wt oh ow k

/-- The whole result array. -/
def result (X : SIn.Idx → EReal) (Wt : SW.Idx → EReal) : SIn.Idx → EReal :=
  fun i => conv X Wt (i 1) (i 2) (i 3)

theorem result_apply (X : SIn.Idx → EReal) (Wt : SW.Idx → EReal) (u : Fin 1) (c : Fin 128) (oh ow : Fin 256) :
    result X Wt (ix4 u c oh ow) = conv X Wt c oh ow := rfl

/-- Nine terms added one after the other onto zero are their sum. -/
theorem sum_nine (f : Fin 9 → EReal) :
    0 + f 0 + f 1 + f 2 + f 3 + f 4 + f 5 + f 6 + f 7 + f 8 = ∑ k : Fin 9, f k := by
  simp only [Fin.sum_univ_succ, Fin.sum_univ_zero, zero_add, add_zero, add_assoc]
  rfl

end Cert.LocalConv

end
-- ==== Proof.RefValue.lean ====
/-
  The reference program computes the function `Cert.LocalConv.result`.

  Read from the result backwards: entry `(c, oh, ow)` is the sum over the nine taps `k` of an entry of the unfolded image
  times the weight `Wt[oh · 256 + ow, k]`. The unfolded image is the stack of the nine windows of the zero-bordered
  image `P` (window `k` is `P` shifted by `(k / 3, k mod 3)`), flattened to `(1152, 65536)`, transposed, and its flat
  buffer re-read with the shape `(128, 65536, 9)`; following the flat position through these three steps shows that
  the entry met at `(c, oh · 256 + ow, k)` is `P[ow mod 128, 2 c + oh / 128 + k / 3, 2 (oh mod 128) + ow / 128 + k mod 3]`.
-/
import proofs.«168863_j47132971106931_2_alg».proof.Proof.Gen.ReferenceIdeal.Read
import proofs.«168863_j47132971106931_2_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.LocalConv.Ref

open Idealize.ShloMosaic Idealize.ShloMosaic.ValueIdx
open Cert.ReferenceIdeal Cert.ReferenceIdeal.Gen Cert.ReferenceIdeal.Read Cert.LocalConv

/-- The image's type as the reference program's first argument. -/
abbrev Img := (⟨S1x128x256x256, .f32⟩ : BufTy).Contents (Elt Ideal)
/-- The weight table's type as the reference program's second argument. -/
abbrev Wts := (⟨S65536x9, .f32⟩ : BufTy).Contents (Elt Ideal)

/-- The padding value — the integer 0 converted — is the real number 0. -/
theorem padValue (i : S_.Idx) : val_main_call0_v0 (F := Ideal) i = (0 : EReal) := by
  rw [val_main_call0_v0_apply, val_main_c_apply]
  show (((0#32 : BitVec 32).toInt : ℝ) : EReal) = 0
  simp

/-- The padded image, read at padded coordinates: the image one step up and left inside the ring, zero on it. -/
theorem pad_read (X : Img) (u : Fin 1) (c : Fin 128) (h w : Nat) (hh : h < 258) (hw : w < 258) :
    val_main_v0 (F := Ideal) X (ix4 u c (⟨h, hh⟩ : Fin 258) (⟨w, hw⟩ : Fin 258)) = padded X c h w := by
  unfold padded val_main_v0
  by_cases hin : (1 ≤ h ∧ h ≤ 256) ∧ (1 ≤ w ∧ w ≤ 256)
  · rw [dif_pos hin]
    refine pad_apply_of_inside _ _ _ X _ pads_S1x128x256x256_S1x128x258x258_000_000_110_110 h_S_ _ _ (fun a => ?_)
    match a with
    | ⟨0, _⟩ => show u.val = 0 + 0 * (0 + 1); omega
    | ⟨1, _⟩ => show c.val = 0 + c.val * (0 + 1); omega
    | ⟨2, _⟩ => show h = 1 + (h - 1) * (0 + 1); omega
    | ⟨3, _⟩ => show w = 1 + (w - 1) * (0 + 1); omega
  · rw [dif_neg hin]
    by_cases hr : 1 ≤ h ∧ h ≤ 256
    · have hc : ¬(1 ≤ w ∧ w ≤ 256) := fun H => hin ⟨hr, H⟩
      refine (pad_apply_of_not_inside _ _ _ X _ pads_S1x128x256x256_S1x128x258x258_000_000_110_110 h_S_ _ (⟨3, by decide⟩ : Fin 4) ?_).trans (padValue _)
      show ¬(1 ≤ w ∧ (w - 1) % (0 + 1) = 0 ∧ (w - 1) / (0 + 1) < 256)
      omega
    · refine (pad_apply_of_not_inside _ _ _ X _ pads_S1x128x256x256_S1x128x258x258_000_000_110_110 h_S_ _ (⟨2, by decide⟩ : Fin 4) ?_).trans (padValue _)
      show ¬(1 ≤ h ∧ (h - 1) % (0 + 1) = 0 ∧ (h - 1) / (0 + 1) < 256)
      omega

/-- The padded image at an index given by its coordinates' values. -/
theorem pad_read' (X : Img) (j : S1x128x258x258.Idx) (c : Fin 128) (h w : Nat)
    (h1 : (j 1).val = c.val) (h2 : (j 2).val = h) (h3 : (j 3).val = w) :
    val_main_v0 (F := Ideal) X j = padded X c h w := by
  have hh : h < 258 := h2 ▸ (j 2).isLt
  have hw : w < 258 := h3 ▸ (j 3).isLt
  have hj : j = ix4 (0 : Fin 1) c (⟨h, hh⟩ : Fin 258) (⟨w, hw⟩ : Fin 258) := by
    funext a
    apply Fin.ext
    match a with
    | ⟨0, _⟩ => have h0 : (j 0).val < 1 := (j 0).isLt; show (j 0).val = 0; omega
    | ⟨1, _⟩ => exact h1
    | ⟨2, _⟩ => exact h2
    | ⟨3, _⟩ => exact h3
  rw [hj]
  exact pad_read X 0 c h w hh hw

/-! The nine windows, each on its own unit axis: window `k` is the padded image shifted by `(k / 3, k mod 3)`. -/

theorem v10_read (X : Img) (u : Fin 1) (c : Fin 128) (z : Fin 1) (h w : Fin 256) :
    val_main_v10 (F := Ideal) X (ix5 u c z h w) = padded X c (0 + h.val) (0 + w.val) := by
  rw [val_main_v10_apply, val_main_v1_apply]
  exact pad_read' X _ c _ _ rfl (by show h.val = 0 + h.val; omega) (by show w.val = 0 + w.val; omega)

theorem v11_read (X : Img) (u : Fin 1) (c : Fin 128) (z : Fin 1) (h w : Fin 256) :
    val_main_v11 (F := Ideal) X (ix5 u c z h w) = padded X c (0 + h.val) (1 + w.val) := by
  rw [val_main_v11_apply, val_main_v2_apply]
  exact pad_read' X _ c _ _ rfl (by show h.val = 0 + h.val; omega) (by show 1 + w.val = 1 + w.val; omega)

theorem v12_read (X : Img) (u : Fin 1) (c : Fin 128) (z : Fin 1) (h w : Fin 256) :
    val_main_v12 (F := Ideal) X (ix5 u c z h w) = padded X c (0 + h.val) (2 + w.val) := by
  rw [val_main_v12_apply, val_main_v3_apply]
  exact pad_read' X _ c _ _ rfl (by show h.val = 0 + h.val; omega) (by show 2 + w.val = 2 + w.val; omega)

theorem v13_read (X : Img) (u : Fin 1) (c : Fin 128) (z : Fin 1) (h w : Fin 256) :
    val_main_v13 (F := Ideal) X (ix5 u c z h w) = padded X c (1 + h.val) (0 + w.val) := by
  rw [val_main_v13_apply, val_main_v4_apply]
  exact pad_read' X _ c _ _ rfl (by show 1 + h.val = 1 + h.val; omega) (by show w.val = 0 + w.val; omega)

theorem v14_read (X : Img) (u : Fin 1) (c : Fin 128) (z : Fin 1) (h w : Fin 256) :
    val_main_v14 (F := Ideal) X (ix5 u c z h w) = padded X c (1 + h.val) (1 + w.val) := by
  rw [val_main_v14_apply, val_main_v5_apply]
  exact pad_read' X _ c _ _ rfl (by show 1 + h.val = 1 + h.val; omega) (by show 1 + w.val = 1 + w.val; omega)

theorem v15_read (X : Img) (u : Fin 1) (c : Fin 128) (z : Fin 1) (h w : Fin 256) :
    val_main_v15 (F := Ideal) X (ix5 u c z h w) = padded X c (1 + h.val) (2 + w.val) := by
  rw [val_main_v15_apply, val_main_v6_apply]
  exact pad_read' X _ c _ _ rfl (by show 1 + h.val = 1 + h.val; omega) (by show 2 + w.val = 2 + w.val; omega)

theorem v16_read (X : Img) (u : Fin 1) (c : Fin 128) (z : Fin 1) (h w : Fin 256) :
    val_main_v16 (F := Ideal) X (ix5 u c z h w) = padded X c (2 + h.val) (0 + w.val) := by
  rw [val_main_v16_apply, val_main_v7_apply]
  exact pad_read' X _ c _ _ rfl (by show 2 + h.val = 2 + h.val; omega) (by show w.val = 0 + w.val; omega)

theorem v17_read (X : Img) (u : Fin 1) (c : Fin 128) (z : Fin 1) (h w : Fin 256) :
    val_main_v17 (F := Ideal) X (ix5 u c z h w) = padded X c (2 + h.val) (1 + w.val) := by
  rw [val_main_v17_apply, val_main_v8_apply]
  exact pad_read' X _ c _ _ rfl (by show 2 + h.val = 2 + h.val; omega) (by show 1 + w.val = 1 + w.val; omega)

theorem v18_read (X : Img) (u : Fin 1) (c : Fin 128) (z : Fin 1) (h w : Fin 256) :
    val_main_v18 (F := Ideal) X (ix5 u c z h w) = padded X c (2 + h.val) (2 + w.val) := by
  rw [val_main_v18_apply, val_main_v9_apply]
  exact pad_read' X _ c _ _ rfl (by show 2 + h.val = 2 + h.val; omega) (by show 2 + w.val = 2 + w.val; omega)

/-- The nine windows in the order they are stacked. -/
abbrev pieces (X : Img) : List ((s : Shape) × (s.Idx → EReal)) :=
  [⟨S1x128x1x256x256, val_main_v10 (F := Ideal) X⟩, ⟨S1x128x1x256x256, val_main_v11 (F := Ideal) X⟩,
   ⟨S1x128x1x256x256, val_main_v12 (F := Ideal) X⟩, ⟨S1x128x1x256x256, val_main_v13 (F := Ideal) X⟩,
   ⟨S1x128x1x256x256, val_main_v14 (F := Ideal) X⟩, ⟨S1x128x1x256x256, val_main_v15 (F := Ideal) X⟩,
   ⟨S1x128x1x256x256, val_main_v16 (F := Ideal) X⟩, ⟨S1x128x1x256x256, val_main_v17 (F := Ideal) X⟩,
   ⟨S1x128x1x256x256, val_main_v18 (F := Ideal) X⟩]

/-- The stack read at an entry whose coordinate on the new axis is `n`: piece `n` at the other coordinates. -/
theorem v19_piece (X : Img) (u : Fin 1) (c : Fin 128) (k : Fin 9) (h w : Fin 256) (n : Nat) (hn : n < (pieces X).length)
    (x₁ : S1x128x1x256x256.Idx → EReal) (hx : (pieces X)[n] = ⟨S1x128x1x256x256, x₁⟩) (hk : k.val = n)
    (hpre : ((((pieces X).take n).map (·.1)).map fun s : Shape =>
      if h : s.rank = S1x128x9x256x256.rank then s.size ((2 : Fin 5).cast h.symm) else 0).sum = n) :
    val_main_v19 (F := Ideal) X (ix5 u c k h w) = x₁ (ix5 u c (0 : Fin 1) h w) := by
  unfold val_main_v19
  refine concatenate_apply_piece (t := S1x128x9x256x256) (2 : Fin 5) (pieces X) concatenates_S1x128x1x256x256_S1x128x1x256x256_S1x128x1x256x256_S1x128x1x256x256_S1x128x1x256x256_S1x128x1x256x256_S1x128x1x256x256_S1x128x1x256x256_S1x128x1x256x256_S1x128x9x256x256_d2
    (ix5 u c k h w) n hn S1x128x1x256x256 x₁ hx rfl n hpre (ix5 u c (0 : Fin 1) h w) (fun b hb => ?_) ?_
  · match b with
    | ⟨0, _⟩ => rfl
    | ⟨1, _⟩ => rfl
    | ⟨2, _⟩ => exact absurd rfl hb
    | ⟨3, _⟩ => rfl
    | ⟨4, _⟩ => rfl
  · show n + 0 = k.val
    omega

/-- The stack of the nine windows: entry `k` on the new axis is window `k`. -/
theorem v19_read (X : Img) (u : Fin 1) (c : Fin 128) (k : Fin 9) (h w : Fin 256) :
    val_main_v19 (F := Ideal) X (ix5 u c k h w) = padded X c (k.val / 3 + h.val) (k.val % 3 + w.val) := by
  match k with
  | ⟨0, hk⟩ =>
    have e1 : 0 / 3 = 0 := by decide
    have e2 : 0 % 3 = 0 := by decide
    show val_main_v19 (F := Ideal) X (ix5 u c (⟨0, hk⟩ : Fin 9) h w) = padded X c (0 / 3 + h.val) (0 % 3 + w.val)
    rw [e1, e2]
    exact (v19_piece X u c _ h w 0 (by show 0 < 9; omega) (val_main_v10 (F := Ideal) X) rfl rfl rfl).trans
      (v10_read X u c 0 h w)
  | ⟨1, hk⟩ =>
    have e1 : 1 / 3 = 0 := by decide
    have e2 : 1 % 3 = 1 := by decide
    show val_main_v19 (F := Ideal) X (ix5 u c (⟨1, hk⟩ : Fin 9) h w) = padded X c (1 / 3 + h.val) (1 % 3 + w.val)
    rw [e1, e2]
    exact (v19_piece X u c _ h w 1 (by show 1 < 9; omega) (val_main_v11 (F := Ideal) X) rfl rfl rfl).trans
      (v11_read X u c 0 h w)
  | ⟨2, hk⟩ =>
    have e1 : 2 / 3 = 0 := by decide
    have e2 : 2 % 3 = 2 := by decide
    show val_main_v19 (F := Ideal) X (ix5 u c (⟨2, hk⟩ : Fin 9) h w) = padded X c (2 / 3 + h.val) (2 % 3 + w.val)
    rw [e1, e2]
    exact (v19_piece X u c _ h w 2 (by show 2 < 9; omega) (val_main_v12 (F := Ideal) X) rfl rfl rfl).trans
      (v12_read X u c 0 h w)
  | ⟨3, hk⟩ =>
    have e1 : 3 / 3 = 1 := by decide
    have e2 : 3 % 3 = 0 := by decide
    show val_main_v19 (F := Ideal) X (ix5 u c (⟨3, hk⟩ : Fin 9) h w) = padded X c (3 / 3 + h.val) (3 % 3 + w.val)
    rw [e1, e2]
    exact (v19_piece X u c _ h w 3 (by show 3 < 9; omega) (val_main_v13 (F := Ideal) X) rfl rfl rfl).trans
      (v13_read X u c 0 h w)
  | ⟨4, hk⟩ =>
    have e1 : 4 / 3 = 1 := by decide
    have e2 : 4 % 3 = 1 := by decide
    show val_main_v19 (F := Ideal) X (ix5 u c (⟨4, hk⟩ : Fin 9) h w) = padded X c (4 / 3 + h.val) (4 % 3 + w.val)
    rw [e1, e2]
    exact (v19_piece X u c _ h w 4 (by show 4 < 9; omega) (val_main_v14 (F := Ideal) X) rfl rfl rfl).trans
      (v14_read X u c 0 h w)
  | ⟨5, hk⟩ =>
    have e1 : 5 / 3 = 1 := by decide
    have e2 : 5 % 3 = 2 := by decide
    show val_main_v19 (F := Ideal) X (ix5 u c (⟨5, hk⟩ : Fin 9) h w) = padded X c (5 / 3 + h.val) (5 % 3 + w.val)
    rw [e1, e2]
    exact (v19_piece X u c _ h w 5 (by show 5 < 9; omega) (val_main_v15 (F := Ideal) X) rfl rfl rfl).trans
      (v15_read X u c 0 h w)
  | ⟨6, hk⟩ =>
    have e1 : 6 / 3 = 2 := by decide
    have e2 : 6 % 3 = 0 := by decide
    show val_main_v19 (F := Ideal) X (ix5 u c (⟨6, hk⟩ : Fin 9) h w) = padded X c (6 / 3 + h.val) (6 % 3 + w.val)
    rw [e1, e2]
    exact (v19_piece X u c _ h w 6 (by show 6 < 9; omega) (val_main_v16 (F := Ideal) X) rfl rfl rfl).trans
      (v16_read X u c 0 h w)
  | ⟨7, hk⟩ =>
    have e1 : 7 / 3 = 2 := by decide
    have e2 : 7 % 3 = 1 := by decide
    show val_main_v19 (F := Ideal) X (ix5 u c (⟨7, hk⟩ : Fin 9) h w) = padded X c (7 / 3 + h.val) (7 % 3 + w.val)
    rw [e1, e2]
    exact (v19_piece X u c _ h w 7 (by show 7 < 9; omega) (val_main_v17 (F := Ideal) X) rfl rfl rfl).trans
      (v17_read X u c 0 h w)
  | ⟨8, hk⟩ =>
    have e1 : 8 / 3 = 2 := by decide
    have e2 : 8 % 3 = 2 := by decide
    show val_main_v19 (F := Ideal) X (ix5 u c (⟨8, hk⟩ : Fin 9) h w) = padded X c (8 / 3 + h.val) (8 % 3 + w.val)
    rw [e1, e2]
    exact (v19_piece X u c _ h w 8 (by show 8 < 9; omega) (val_main_v18 (F := Ideal) X) rfl rfl rfl).trans
      (v18_read X u c 0 h w)

/-- The stack at an index given by its coordinates' values. -/
theorem v19_read' (X : Img) (j : S1x128x9x256x256.Idx) (c : Fin 128) (k : Fin 9) (h w : Fin 256)
    (h1 : (j 1).val = c.val) (h2 : (j 2).val = k.val) (h3 : (j 3).val = h.val) (h4 : (j 4).val = w.val) :
    val_main_v19 (F := Ideal) X j = padded X c (k.val / 3 + h.val) (k.val % 3 + w.val) := by
  have hj : j = ix5 (0 : Fin 1) c k h w := by
    funext a
    apply Fin.ext
    match a with
    | ⟨0, _⟩ => have h0 : (j 0).val < 1 := (j 0).isLt; show (j 0).val = 0; omega
    | ⟨1, _⟩ => exact h1
    | ⟨2, _⟩ => exact h2
    | ⟨3, _⟩ => exact h3
    | ⟨4, _⟩ => exact h4
  rw [hj]
  exact v19_read X 0 c k h w

/-- The unfolded image after the transpose and the re-reading of its flat buffer as `(128, 65536, 9)`: entry
    `(c, oh · 256 + ow, k)` has flat position `(c · 65536 + oh · 256 + ow) · 9 + k = l · 1152 + f` with
    `l = c · 512 + 2 oh + ow / 128` and `f = (ow mod 128) · 9 + k`, so it is tap `k` of input channel `ow mod 128` at
    output position `l = (2 c + oh / 128) · 256 + (2 (oh mod 128) + ow / 128)`. -/
theorem v22_read (X : Img) (u : Fin 1) (c : Fin 128) (oh ow : Fin 256) (k : Fin 9)
    (hl : oh.val * 256 + ow.val < 65536) :
    val_main_v22 (F := Ideal) X (ix4 u c (⟨oh.val * 256 + ow.val, hl⟩ : Fin 65536) k)
      = padded X (⟨ow.val % 128, Nat.mod_lt _ (by decide)⟩ : Fin 128) (k.val / 3 + (2 * c.val + oh.val / 128))
          (k.val % 3 + (2 * (oh.val % 128) + ow.val / 128)) := by
  have hu : u.val < 1 := u.isLt
  have hc : c.val < 128 := c.isLt
  have hoh : oh.val < 256 := oh.isLt
  have how : ow.val < 256 := ow.isLt
  have hk : k.val < 9 := k.isLt
  have hM : (((u.val * 128 + c.val) * 65536 + (oh.val * 256 + ow.val)) * 9 + k.val) / 1152 = (c.val * 512 + 2 * oh.val + ow.val / 128) ∧ (((u.val * 128 + c.val) * 65536 + (oh.val * 256 + ow.val)) * 9 + k.val) % 1152 = (ow.val % 128 * 9 + k.val) :=
    (Nat.div_mod_unique (by decide)).2 ⟨by omega, by omega⟩
  have hA : (c.val * 512 + 2 * oh.val + ow.val / 128) % 65536 = (c.val * 512 + 2 * oh.val + ow.val / 128) := Nat.mod_eq_of_lt (by omega)
  rw [val_main_v22_apply, val_main_v21_apply, val_main_v20_apply]
  refine v19_read' X _ (⟨ow.val % 128, Nat.mod_lt _ (by decide)⟩ : Fin 128) k
    (⟨2 * c.val + oh.val / 128, by omega⟩ : Fin 256) (⟨2 * (oh.val % 128) + ow.val / 128, by omega⟩ : Fin 256) ?_ ?_ ?_ ?_
  · show ((0 * 1152 + (((u.val * 128 + c.val) * 65536 + (oh.val * 256 + ow.val)) * 9 + k.val) % 1152) * 65536 + (((u.val * 128 + c.val) * 65536 + (oh.val * 256 + ow.val)) * 9 + k.val) / 1152 % 65536) / 589824 % 128 = ow.val % 128
    rw [hM.1, hM.2, hA]
    have h1 : ((0 * 1152 + (ow.val % 128 * 9 + k.val)) * 65536 + (c.val * 512 + 2 * oh.val + ow.val / 128)) / 589824 = ow.val % 128 ∧ ((0 * 1152 + (ow.val % 128 * 9 + k.val)) * 65536 + (c.val * 512 + 2 * oh.val + ow.val / 128)) % 589824 = k.val * 65536 + (c.val * 512 + 2 * oh.val + ow.val / 128) :=
      (Nat.div_mod_unique (by decide)).2 ⟨by omega, by omega⟩
    rw [h1.1]
    omega
  · show ((0 * 1152 + (((u.val * 128 + c.val) * 65536 + (oh.val * 256 + ow.val)) * 9 + k.val) % 1152) * 65536 + (((u.val * 128 + c.val) * 65536 + (oh.val * 256 + ow.val)) * 9 + k.val) / 1152 % 65536) / 65536 % 9 = k.val
    rw [hM.1, hM.2, hA]
    have h2 : ((0 * 1152 + (ow.val % 128 * 9 + k.val)) * 65536 + (c.val * 512 + 2 * oh.val + ow.val / 128)) / 65536 = (ow.val % 128 * 9 + k.val) ∧ ((0 * 1152 + (ow.val % 128 * 9 + k.val)) * 65536 + (c.val * 512 + 2 * oh.val + ow.val / 128)) % 65536 = (c.val * 512 + 2 * oh.val + ow.val / 128) :=
      (Nat.div_mod_unique (by decide)).2 ⟨by omega, by omega⟩
    rw [h2.1]
    omega
  · show ((0 * 1152 + (((u.val * 128 + c.val) * 65536 + (oh.val * 256 + ow.val)) * 9 + k.val) % 1152) * 65536 + (((u.val * 128 + c.val) * 65536 + (oh.val * 256 + ow.val)) * 9 + k.val) / 1152 % 65536) / 256 % 256 = 2 * c.val + oh.val / 128
    rw [hM.1, hM.2, hA]
    have h3 : ((0 * 1152 + (ow.val % 128 * 9 + k.val)) * 65536 + (c.val * 512 + 2 * oh.val + ow.val / 128)) / 256 = (ow.val % 128 * 9 + k.val) * 256 + (2 * c.val + oh.val / 128) ∧ ((0 * 1152 + (ow.val % 128 * 9 + k.val)) * 65536 + (c.val * 512 + 2 * oh.val + ow.val / 128)) % 256 = 2 * (oh.val % 128) + ow.val / 128 :=
      (Nat.div_mod_unique (by decide)).2 ⟨by omega, by omega⟩
    rw [h3.1]
    omega
  · show ((0 * 1152 + (((u.val * 128 + c.val) * 65536 + (oh.val * 256 + ow.val)) * 9 + k.val) % 1152) * 65536 + (((u.val * 128 + c.val) * 65536 + (oh.val * 256 + ow.val)) * 9 + k.val) / 1152 % 65536) % 256 = 2 * (oh.val % 128) + ow.val / 128
    rw [hM.1, hM.2, hA]
    omega

/-- The weight table broadcast over the channels. -/
theorem v24_read (Wt : Wts) (u : Fin 1) (c : Fin 128) (l : Fin 65536) (k : Fin 9) :
    val_main_v24 (F := Ideal) Wt (ix4 u c l k) = Wt (ix2 l k) := by
  rw [val_main_v24_apply, val_main_v23_apply]
  exact congrArg Wt (funext fun a => by match a with | ⟨0, _⟩ => rfl | ⟨1, _⟩ => rfl)

/-- The reference program computes the function of Spec.lean. -/
theorem ref_eq (X : (⟨Cert.ReferenceIdeal.S1x128x256x256, .f32⟩ : BufTy).Contents (Elt Ideal))
    (Wt : (⟨Cert.ReferenceIdeal.S65536x9, .f32⟩ : BufTy).Contents (Elt Ideal)) :
    Cert.ReferenceIdeal.Read.val_main_v27 (F := Ideal) X Wt = Cert.LocalConv.result X Wt := by
  funext i
  obtain ⟨u, c, oh, ow, rfl⟩ : ∃ (u : Fin 1) (c : Fin 128) (oh ow : Fin 256), i = ix4 u c oh ow :=
    ⟨i 0, i 1, i 2, i 3, eq_ix4 i⟩
  have hu : u.val < 1 := u.isLt
  have hc : c.val < 128 := c.isLt
  have hoh : oh.val < 256 := oh.isLt
  have how : ow.val < 256 := ow.isLt
  have hl : oh.val * 256 + ow.val < 65536 := by omega
  rw [result_apply, val_main_v27_apply, val_main_v26_apply, val_main_cst_apply]
  unfold conv
  have hz : (FloatOps.ofBits FTy.f32 0x00000000#32 : Ideal FTy.f32) = (0 : EReal) := Ideal.ofBits_zero_f32
  rw [hz, zero_add]
  refine Finset.sum_congr rfl fun k _ => ?_
  have hidx : idx_main_v26 (idx_main_v27 (ix4 u c oh ow)) k
      = ix4 (0 : Fin 1) c (⟨oh.val * 256 + ow.val, hl⟩ : Fin 65536) k := by
    funext a
    apply Fin.ext
    match a with
    | ⟨0, _⟩ => rfl
    | ⟨1, _⟩ => show (((u.val * 128 + c.val) * 256 + oh.val) * 256 + ow.val) / 65536 % 128 = c.val; omega
    | ⟨2, _⟩ => show (((u.val * 128 + c.val) * 256 + oh.val) * 256 + ow.val) % 65536 = oh.val * 256 + ow.val; omega
    | ⟨3, _⟩ => rfl
  rw [hidx, val_main_v25_apply, v22_read X 0 c oh ow k hl, v24_read]
  rw [Nat.add_comm (k.val / 3), Nat.add_comm (k.val % 3)]
  rfl

end Cert.LocalConv.Ref

end
-- ==== Proof.Interleave.lean ====
/-
  The three shifted, interleaved copies of the ten image rows one grid step works on.

  A grid step loads eight image rows of every channel and one halo row above and below: ten rows `ρ` of a
  zero-bordered image `Pd`, `rows[c, ρ, w] = Pd c (base + ρ) (w + 1)` (columns in padded coordinates). It shifts them by
  one column to either side, filling with zero — which is exactly reading `Pd` one padded column to the left or right,
  the border being zero —, and re-lays each copy from (channel, row, column) to (row, a, b · 128 + channel) with
  column = 2 a + b. So entry `(ρ, a, ow)` of copy `δ ∈ {0, 1, 2}` is `Pd (ow mod 128) (base + ρ) (2 a + ow / 128 + δ)`.
-/
import proofs.«168863_j47132971106931_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.LocalConv.Body

open Idealize.ShloMosaic Idealize.ShloMosaic.ValueIdx
open Cert.KernelIdeal Cert.KernelIdeal.Gen

/-- A 128 × 256 plane given with a leading unit axis, re-read with the unit axis in the middle. -/
theorem halo_cast_apply (x : Vec Ideal S1x128x256 .f32) (h1 : S1x128x256.ShapeCasts S128x256)
    (h2 : S128x256.ShapeCasts S128x1x256) (cc : Fin 128) (u : Fin 1) (w : Fin 256) :
    shapeCast S128x1x256 (shapeCast S128x256 x h1) h2 (ix3 cc u w) = x (ix3 (0 : Fin 1) cc w) := by
  refine (shapeCast_apply _ h2 (ix3 cc u w) (ix2 cc w) ?_).trans (shapeCast_1ab_ab_apply x h1 cc w)
  rw [Shape.rowMajor_val_two, Shape.rowMajor_val_three]
  show cc.val * 256 + w.val = (cc.val * 1 + u.val) * 256 + w.val
  omega

/-- The ten rows: the upper halo row, the eight rows of the block, the lower halo row, stacked along the row axis. -/
theorem rows_apply (x0 : Vec Ideal S128x8x256 .f32) (x1 x2 : Vec Ideal S1x128x256 .f32)
    (Pd : Fin 128 → Nat → Nat → EReal) (base : Nat)
    (h1 : ∀ (cc : Fin 128) (w : Fin 256), x1 (ix3 (0 : Fin 1) cc w) = Pd cc base (w.val + 1))
    (h0 : ∀ (cc : Fin 128) (r : Fin 8) (w : Fin 256), x0 (ix3 cc r w) = Pd cc (base + r.val + 1) (w.val + 1))
    (h2 : ∀ (cc : Fin 128) (w : Fin 256), x2 (ix3 (0 : Fin 1) cc w) = Pd cc (base + 9) (w.val + 1))
    (cc : Fin 128) (ρ : Fin 10) (w : Fin 256) :
    k0_pay2 x0 x1 x2 (ix3 cc ρ w) = Pd cc (base + ρ.val) (w.val + 1) := by
  unfold k0_pay2
  have hρ := ρ.isLt
  by_cases c0 : ρ.val = 0
  · refine (concatenate_apply_piece (1 : Fin 3) _ _ (ix3 cc ρ w) 0 ?hk S128x1x256 ?x1 ?hxk ?hr 0 ?hpre
      (ix3 cc (0 : Fin 1) w) ?hi ?ha).trans ?fin
    case hxk => rfl
    case hk => show 0 < 3; omega
    case hr => rfl
    case hpre => rfl
    case hi =>
      intro b hb
      match b with
      | ⟨0, _⟩ => rfl
      | ⟨1, _⟩ => exact absurd rfl hb
      | ⟨2, _⟩ => rfl
    case ha => show 0 + 0 = ρ.val; omega
    case fin => rw [halo_cast_apply, h1, c0]; rfl
  by_cases c9 : ρ.val = 9
  · refine (concatenate_apply_piece (1 : Fin 3) _ _ (ix3 cc ρ w) 2 ?hk9 S128x1x256 ?x19 ?hxk9 ?hr9 9 ?hpre9
      (ix3 cc (0 : Fin 1) w) ?hi9 ?ha9).trans ?fin9
    case hxk9 => rfl
    case hk9 => show 2 < 3; omega
    case hr9 => rfl
    case hpre9 => rfl
    case hi9 =>
      intro b hb
      match b with
      | ⟨0, _⟩ => rfl
      | ⟨1, _⟩ => exact absurd rfl hb
      | ⟨2, _⟩ => rfl
    case ha9 => show 9 + 0 = ρ.val; omega
    case fin9 => rw [halo_cast_apply, h2, c9]
  · refine (concatenate_apply_piece (1 : Fin 3) _ _ (ix3 cc ρ w) 1 ?hkm S128x8x256 ?x1m ?hxkm ?hrm 1 ?hprem
      (ix3 cc (⟨ρ.val - 1, by omega⟩ : Fin 8) w) ?him ?ham).trans ?finm
    case hxkm => rfl
    case hkm => show 1 < 3; omega
    case hrm => rfl
    case hprem => rfl
    case him =>
      intro b hb
      match b with
      | ⟨0, _⟩ => rfl
      | ⟨1, _⟩ => exact absurd rfl hb
      | ⟨2, _⟩ => rfl
    case ham => show 1 + (ρ.val - 1) = ρ.val; omega
    case finm =>
      rw [shapeCast_self, h0]
      show Pd cc (base + (ρ.val - 1) + 1) (w.val + 1) = _
      congr 1; omega

/-- The re-laying of a (channel, row, column) array as (row, a, b · 128 + channel), column = 2 a + b. -/
theorem interleave_apply (v : FVec Ideal S128x10x256 .f32) (h1 : S128x10x256.ShapeCasts S128x10x128x2)
    (h2 : S128x10x128x2.Transposes [1, 2, 3, 0] S10x128x2x128) (h3 : S10x128x2x128.ShapeCasts S10x128x256)
    (ρ : Fin 10) (a : Fin 128) (ow : Fin 256) :
    shapeCast S10x128x256 (transpose S10x128x2x128 [1, 2, 3, 0] (shapeCast S128x10x128x2 v h1) h2) h3 (ix3 ρ a ow)
      = v (ix3 (⟨ow.val % 128, Nat.mod_lt _ (by decide)⟩ : Fin 128) ρ
          (⟨2 * a.val + ow.val / 128, by have := a.isLt; have := ow.isLt; omega⟩ : Fin 256)) := by
  have ha := a.isLt; have how := ow.isLt; have hρ := ρ.isLt
  refine (shapeCast_apply _ h3 (ix3 ρ a ow)
    (ix4 ρ a (⟨ow.val / 128, by omega⟩ : Fin 2) (⟨ow.val % 128, Nat.mod_lt _ (by decide)⟩ : Fin 128)) ?_).trans ?_
  · rw [Shape.rowMajor_val_four, Shape.rowMajor_val_three]
    show ((ρ.val * 128 + a.val) * 2 + ow.val / 128) * 128 + ow.val % 128 = (ρ.val * 128 + a.val) * 256 + ow.val
    omega
  refine (transpose_apply [1, 2, 3, 0] _ h2 _
    (ix4 (⟨ow.val % 128, Nat.mod_lt _ (by decide)⟩ : Fin 128) ρ a (⟨ow.val / 128, by omega⟩ : Fin 2)) ?_).trans ?_
  · intro b
    match b with
    | ⟨0, _⟩ => rfl
    | ⟨1, _⟩ => rfl
    | ⟨2, _⟩ => rfl
    | ⟨3, _⟩ => rfl
  refine shapeCast_apply v h1 _ _ ?_
  rw [Shape.rowMajor_val_three, Shape.rowMajor_val_four]
  show ((ow.val % 128) * 10 + ρ.val) * 256 + (2 * a.val + ow.val / 128)
    = (((ow.val % 128) * 10 + ρ.val) * 128 + a.val) * 2 + ow.val / 128
  omega

/-- The floating-point zero word is the real number zero. -/
theorem zero_word : (Scalar.ofBits (F := Ideal) .f32 0x00000000#32 : EReal) = 0 := Ideal.ofBits_zero_f32

section Copies

variable (x0 : Vec Ideal S128x8x256 .f32) (x1 x2 : Vec Ideal S1x128x256 .f32)
  (Pd : Fin 128 → Nat → Nat → EReal) (base : Nat)
  (h1 : ∀ (cc : Fin 128) (w : Fin 256), x1 (ix3 (0 : Fin 1) cc w) = Pd cc base (w.val + 1))
  (h0 : ∀ (cc : Fin 128) (r : Fin 8) (w : Fin 256), x0 (ix3 cc r w) = Pd cc (base + r.val + 1) (w.val + 1))
  (h2 : ∀ (cc : Fin 128) (w : Fin 256), x2 (ix3 (0 : Fin 1) cc w) = Pd cc (base + 9) (w.val + 1))
include h1 h0 h2

/-- The copy shifted one column to the right (a zero column enters on the left): padded column `2 a + ow / 128`. -/
theorem copy_left_apply (hl : ∀ cc h, Pd cc h 0 = 0) (ρ : Fin 10) (a : Fin 128) (ow : Fin 256) :
    k0_pay3 x0 x1 x2 (ix3 ρ a ow)
      = Pd (⟨ow.val % 128, Nat.mod_lt _ (by decide)⟩ : Fin 128) (base + ρ.val) (2 * a.val + ow.val / 128) := by
  have ha := a.isLt; have how := ow.isLt
  unfold k0_pay3
  refine (interleave_apply _ _ _ _ ρ a ow).trans ?_
  by_cases hw : 2 * a.val + ow.val / 128 = 0
  · refine (concatenate_pair_apply_left (t := S128x10x256) (s₁ := S128x10x1) (s₂ := S128x10x255) (2 : Fin 3) _ _ _ _ rfl
      (ix3 (⟨ow.val % 128, Nat.mod_lt _ (by decide)⟩ : Fin 128) ρ (0 : Fin 1)) ?_).trans ?_
    · intro b
      match b with
      | ⟨0, _⟩ => rfl
      | ⟨1, _⟩ => rfl
      | ⟨2, _⟩ => show 0 = 2 * a.val + ow.val / 128; omega
    · rw [hw, hl]; exact zero_word
  · refine (concatenate_pair_apply_right (t := S128x10x256) (s₁ := S128x10x1) (s₂ := S128x10x255) (2 : Fin 3) _ _ _ _ rfl rfl
      (ix3 (⟨ow.val % 128, Nat.mod_lt _ (by decide)⟩ : Fin 128) ρ (⟨2 * a.val + ow.val / 128 - 1, by omega⟩ : Fin 255)) ?_ ?_).trans ?_
    · intro b hb
      match b with
      | ⟨0, _⟩ => rfl
      | ⟨1, _⟩ => rfl
      | ⟨2, _⟩ => exact absurd rfl hb
    · show 2 * a.val + ow.val / 128 - 1 + 1 = 2 * a.val + ow.val / 128; omega
    · refine (extractStridedSlice_apply _ _ _ _
        (ix3 (⟨ow.val % 128, Nat.mod_lt _ (by decide)⟩ : Fin 128) ρ (⟨2 * a.val + ow.val / 128 - 1, by omega⟩ : Fin 256)) ?_).trans ?_
      · intro b
        match b with
        | ⟨0, _⟩ => exact (Nat.zero_add _).symm
        | ⟨1, _⟩ => exact (Nat.zero_add _).symm
        | ⟨2, _⟩ => exact (Nat.zero_add _).symm
      · rw [rows_apply x0 x1 x2 Pd base h1 h0 h2]
        show Pd _ _ (2 * a.val + ow.val / 128 - 1 + 1) = _
        congr 1; omega

/-- The unshifted copy: padded column `2 a + ow / 128 + 1`. -/
theorem copy_mid_apply (ρ : Fin 10) (a : Fin 128) (ow : Fin 256) :
    k0_pay4 x0 x1 x2 (ix3 ρ a ow)
      = Pd (⟨ow.val % 128, Nat.mod_lt _ (by decide)⟩ : Fin 128) (base + ρ.val) (2 * a.val + ow.val / 128 + 1) := by
  unfold k0_pay4
  exact (interleave_apply _ _ _ _ ρ a ow).trans (rows_apply x0 x1 x2 Pd base h1 h0 h2 _ ρ _)

/-- The copy shifted one column to the left (a zero column enters on the right): padded column `2 a + ow / 128 + 2`. -/
theorem copy_right_apply (hr : ∀ cc h, Pd cc h 257 = 0) (ρ : Fin 10) (a : Fin 128) (ow : Fin 256) :
    k0_pay5 x0 x1 x2 (ix3 ρ a ow)
      = Pd (⟨ow.val % 128, Nat.mod_lt _ (by decide)⟩ : Fin 128) (base + ρ.val) (2 * a.val + ow.val / 128 + 2) := by
  have ha := a.isLt; have how := ow.isLt
  unfold k0_pay5
  refine (interleave_apply _ _ _ _ ρ a ow).trans ?_
  by_cases hw : 2 * a.val + ow.val / 128 = 255
  · refine (concatenate_pair_apply_right (t := S128x10x256) (s₁ := S128x10x255) (s₂ := S128x10x1) (2 : Fin 3) _ _ _ _ rfl rfl
      (ix3 (⟨ow.val % 128, Nat.mod_lt _ (by decide)⟩ : Fin 128) ρ (0 : Fin 1)) ?_ ?_).trans ?_
    · intro b hb
      match b with
      | ⟨0, _⟩ => rfl
      | ⟨1, _⟩ => rfl
      | ⟨2, _⟩ => exact absurd rfl hb
    · show 0 + 255 = 2 * a.val + ow.val / 128; omega
    · rw [hw, hr]; exact zero_word
  · refine (concatenate_pair_apply_left (t := S128x10x256) (s₁ := S128x10x255) (s₂ := S128x10x1) (2 : Fin 3) _ _ _ _ rfl
      (ix3 (⟨ow.val % 128, Nat.mod_lt _ (by decide)⟩ : Fin 128) ρ (⟨2 * a.val + ow.val / 128, by omega⟩ : Fin 255)) ?_).trans ?_
    · intro b
      match b with
      | ⟨0, _⟩ => rfl
      | ⟨1, _⟩ => rfl
      | ⟨2, _⟩ => rfl
    · refine (extractStridedSlice_apply _ _ _ _
        (ix3 (⟨ow.val % 128, Nat.mod_lt _ (by decide)⟩ : Fin 128) ρ (⟨2 * a.val + ow.val / 128 + 1, by omega⟩ : Fin 256)) ?_).trans ?_
      · intro b
        match b with
        | ⟨0, _⟩ => exact (Nat.zero_add _).symm
        | ⟨1, _⟩ => exact (Nat.zero_add _).symm
        | ⟨2, _⟩ => show 2 * a.val + ow.val / 128 + 1 = 1 + (2 * a.val + ow.val / 128); omega
      · exact rows_apply x0 x1 x2 Pd base h1 h0 h2 _ ρ _

end Copies

end Cert.LocalConv.Body

end
-- ==== Proof.Body.lean ====
/-
  One grid step of the kernel, entry by entry.

  The step holds ten rows of every channel of the zero-bordered image (Interleave.lean: three copies, one per column
  offset, each re-laid so that entry `(ρ, a, ow)` is channel `ow mod 128`, row `ρ`, padded column `2 a + ow / 128 + δ`)
  and the whole weight table with the tap axis in front. It writes its four output channels in eight pieces — channel
  `tt`, upper or lower half `hi` of the 256 output rows —, each piece a running sum, started at zero, of nine products:
  tap `k` multiplies row `2 tt + hi + k / 3` of copy `k mod 3` by plane `k` of the weights' half. Nine terms added one
  after the other onto zero are their sum, so every piece is the same nine-tap sum read at its own rows, and the eight
  pieces tile the block.
-/
import proofs.«168863_j47132971106931_2_alg».proof.Proof.Gen.KernelIdeal.Frame
import proofs.«168863_j47132971106931_2_alg».proof.Proof.Spec
import proofs.«168863_j47132971106931_2_alg».proof.Proof.Interleave
import Idealize.ShloMosaic.Lib.ValueIdx
import Idealize.ShloMosaic.Lib.ValueLayout
import Idealize.ShloMosaic.Lib.Pipeline.Value

noncomputable section

open scoped BigOperators

namespace Cert.LocalConv.Body

open Idealize.ShloMosaic Idealize.ShloMosaic.ValueIdx
open Cert.KernelIdeal Cert.KernelIdeal.Gen Cert.LocalConv

theorem zero_offsets : (![0, 0, 0] : Fin 3 → Nat) = fun _ => 0 := funext fun b => by fin_cases b <;> rfl

theorem lt_of_slices {n r : Nat} (hs : (⟨3, ![n, 128, 256]⟩ : Shape).Slices ![r, 0, 0] ⟨3, ![1, 128, 256]⟩) : r < n := by
  obtain ⟨h, H⟩ := hs
  exact Nat.lt_of_succ_le (H 0)

/-- Plane `r` of a stack of 128 × 256 planes. -/
theorem plane_apply {n : Nat} (r : Nat) (v : (⟨3, ![n, 128, 256]⟩ : Shape).Idx → EReal)
    (hs : (⟨3, ![n, 128, 256]⟩ : Shape).Slices ![r, 0, 0] ⟨3, ![1, 128, 256]⟩) (u : Fin 1) (a : Fin 128) (ow : Fin 256) :
    extractStridedSlice ⟨3, ![1, 128, 256]⟩ ![r, 0, 0] v hs (ix3 u a ow) = v (ix3 (⟨r, lt_of_slices hs⟩ : Fin n) a ow) :=
  extractStridedSlice_apply _ _ _ _ _ (fun ax => by
    match ax with
    | ⟨0, _⟩ => show r = r + u.val; omega
    | ⟨1, _⟩ => exact (Nat.zero_add _).symm
    | ⟨2, _⟩ => exact (Nat.zero_add _).symm)

/-- The upper half of the weight block: output rows 0 … 127. -/
theorem ld_upper (x3 : Vec Ideal S9x256x256 .f32) (k : Fin 9) (a : Fin 128) (ow : Fin 256) :
    View.ld x3 r0_2 (ix3 k a ow) = x3 (ix3 k (⟨128 * 0 + a.val, by omega⟩ : Fin 256) ow) :=
  congrArg x3 (funext fun b => Fin.ext (by
    match b with
    | ⟨0, _⟩ => show 0 + 1 * k.val = k.val; omega
    | ⟨1, _⟩ => show 0 + 1 * a.val = 128 * 0 + a.val; omega
    | ⟨2, _⟩ => show 0 + 1 * ow.val = ow.val; omega))

/-- The lower half of the weight block: output rows 128 … 255. -/
theorem ld_lower (x3 : Vec Ideal S9x256x256 .f32) (k : Fin 9) (a : Fin 128) (ow : Fin 256) :
    View.ld x3 r0_4 (ix3 k a ow) = x3 (ix3 k (⟨128 * 1 + a.val, by omega⟩ : Fin 256) ow) :=
  congrArg x3 (funext fun b => Fin.ext (by
    match b with
    | ⟨0, _⟩ => show 0 + 1 * k.val = k.val; omega
    | ⟨1, _⟩ => show 128 + 1 * a.val = 128 * 1 + a.val; omega
    | ⟨2, _⟩ => show 0 + 1 * ow.val = ow.val; omega))

section Step

variable (x0 : Vec Ideal S128x8x256 .f32) (x1 x2 : Vec Ideal S1x128x256 .f32) (x3 : Vec Ideal S9x256x256 .f32)
  (Pd : Fin 128 → Nat → Nat → EReal) (base : Nat)

/-- What the step should leave at entry `y = (tt, oh, ow)` of its output block: the nine taps around padded position
    `(base + 2 tt + oh / 128, 2 (oh mod 128) + ow / 128)` of channel `ow mod 128`, each times the weight at `(k, oh, ow)`. -/
def blockVal (y : S4x256x256.Idx) : EReal :=
  ∑ k : Fin 9, Pd (⟨(y 2).val % 128, Nat.mod_lt _ (by decide)⟩ : Fin 128) (base + 2 * (y 0).val + (y 1).val / 128 + k.val / 3)
      (2 * ((y 1).val % 128) + (y 2).val / 128 + k.val % 3)
    * x3 (ix3 k (⟨(y 1).val, (y 1).isLt⟩ : Fin 256) (⟨(y 2).val, (y 2).isLt⟩ : Fin 256))

/-- The same sum at an entry given by its channel `tt`, its half `hi` and row `a` within the half, and its column. -/
theorem blockVal_of_coords (y : S4x256x256.Idx) (tt hi : Nat) (a : Fin 128) (ow : Fin 256) (hhi : hi < 2)
    (e0 : (y 0).val = tt) (e1 : (y 1).val = 128 * hi + a.val) (e2 : (y 2).val = ow.val) :
    blockVal x3 Pd base y
      = ∑ k : Fin 9, Pd (⟨ow.val % 128, Nat.mod_lt _ (by decide)⟩ : Fin 128) (base + (2 * tt + hi) + k.val / 3)
          (2 * a.val + ow.val / 128 + k.val % 3) * x3 (ix3 k (⟨128 * hi + a.val, by have := a.isLt; omega⟩ : Fin 256) ow) := by
  unfold blockVal
  refine Finset.sum_congr rfl fun k _ => ?_
  have ha := a.isLt
  have eA : (⟨(y 2).val % 128, Nat.mod_lt _ (by decide)⟩ : Fin 128) = ⟨ow.val % 128, Nat.mod_lt _ (by decide)⟩ :=
    Fin.ext (by rw [e2])
  have eB : base + 2 * (y 0).val + (y 1).val / 128 + k.val / 3 = base + (2 * tt + hi) + k.val / 3 := by
    rw [e0, e1]; omega
  have eC : 2 * ((y 1).val % 128) + (y 2).val / 128 + k.val % 3 = 2 * a.val + ow.val / 128 + k.val % 3 := by
    rw [e1, e2]; omega
  have eI : (ix3 k (⟨(y 1).val, (y 1).isLt⟩ : Fin 256) (⟨(y 2).val, (y 2).isLt⟩ : Fin 256) : S9x256x256.Idx)
      = ix3 k (⟨128 * hi + a.val, by omega⟩ : Fin 256) ow := by
    funext b
    match b with
    | ⟨0, _⟩ => rfl
    | ⟨1, _⟩ => exact Fin.ext e1
    | ⟨2, _⟩ => exact Fin.ext e2
  rw [eA, eB, eC, eI]

variable
  (h1 : ∀ (cc : Fin 128) (w : Fin 256), x1 (ix3 (0 : Fin 1) cc w) = Pd cc base (w.val + 1))
  (h0 : ∀ (cc : Fin 128) (r : Fin 8) (w : Fin 256), x0 (ix3 cc r w) = Pd cc (base + r.val + 1) (w.val + 1))
  (h2 : ∀ (cc : Fin 128) (w : Fin 256), x2 (ix3 (0 : Fin 1) cc w) = Pd cc (base + 9) (w.val + 1))
  (hl : ∀ cc h, Pd cc h 0 = 0) (hr : ∀ cc h, Pd cc h 257 = 0)
include h1 h0 h2 hl hr

/-- Output channel 3 of the block, lower half of the rows: the taps start at row `base + 7`. -/
theorem piece_3_1 (u : Fin 1) (a : Fin 128) (ow : Fin 256) :
    k0_pay1 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (k0_pay36 (View.ld x3 r0_4)) (k0_pay37 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (View.ld x3 r0_4)) (k0_pay38 (k0_pay3 (View.ld x0 r0_0) (View.ld x1 r0_1) (View.ld x2 r0_1))) (k0_pay39 (View.ld x3 r0_4)) (ix3 u a ow)
      = ∑ k : Fin 9, Pd (⟨ow.val % 128, Nat.mod_lt _ (by decide)⟩ : Fin 128) (base + (2 * 3 + 1) + k.val / 3)
          (2 * a.val + ow.val / 128 + k.val % 3) * x3 (ix3 k (⟨128 * 1 + a.val, by omega⟩ : Fin 256) ow) := by
  simp only [View.ld_unit_zero (S := S128x8x256) zero_offsets, View.ld_unit_zero (S := S1x128x256) zero_offsets]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    shapeCast_self, shapeCast_ab_1ab_apply, shapeCast_1ab_ab_apply, addf_apply, mulf_apply, plane_apply, broadcast_apply, zero_word,
    copy_left_apply x0 x1 x2 Pd base h1 h0 h2 hl, copy_mid_apply x0 x1 x2 Pd base h1 h0 h2,
    copy_right_apply x0 x1 x2 Pd base h1 h0 h2 hr]
  simp only [ld_lower x3]
  rw [← sum_nine]
  rfl

/-- Output channel 3 of the block, upper half of the rows: the taps start at row `base + 6`. -/
theorem piece_3_0 (u : Fin 1) (a : Fin 128) (ow : Fin 256) :
    k0_pay35 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (k0_pay32 (View.ld x3 r0_2)) (k0_pay33 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (View.ld x3 r0_2)) (k0_pay34 (k0_pay4 (View.ld x0 r0_0) (View.ld x1 r0_1) (View.ld x2 r0_1)) (View.ld x3 r0_2)) (ix3 u a ow)
      = ∑ k : Fin 9, Pd (⟨ow.val % 128, Nat.mod_lt _ (by decide)⟩ : Fin 128) (base + (2 * 3 + 0) + k.val / 3)
          (2 * a.val + ow.val / 128 + k.val % 3) * x3 (ix3 k (⟨128 * 0 + a.val, by omega⟩ : Fin 256) ow) := by
  simp only [View.ld_unit_zero (S := S128x8x256) zero_offsets, View.ld_unit_zero (S := S1x128x256) zero_offsets]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    shapeCast_self, shapeCast_ab_1ab_apply, shapeCast_1ab_ab_apply, addf_apply, mulf_apply, plane_apply, broadcast_apply, zero_word,
    copy_left_apply x0 x1 x2 Pd base h1 h0 h2 hl, copy_mid_apply x0 x1 x2 Pd base h1 h0 h2,
    copy_right_apply x0 x1 x2 Pd base h1 h0 h2 hr]
  simp only [ld_upper x3]
  rw [← sum_nine]
  rfl

/-- Output channel 2 of the block, lower half of the rows: the taps start at row `base + 5`. -/
theorem piece_2_1 (u : Fin 1) (a : Fin 128) (ow : Fin 256) :
    k0_pay31 (k0_pay4 (View.ld x0 r0_0) (View.ld x1 r0_1) (View.ld x2 r0_1)) (k0_pay5 (View.ld x0 r0_0) (View.ld x1 r0_1) (View.ld x2 r0_1)) (k0_pay28 (View.ld x3 r0_4)) (k0_pay29 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (View.ld x3 r0_4)) (k0_pay30 (k0_pay3 (View.ld x0 r0_0) (View.ld x1 r0_1) (View.ld x2 r0_1))) (ix3 u a ow)
      = ∑ k : Fin 9, Pd (⟨ow.val % 128, Nat.mod_lt _ (by decide)⟩ : Fin 128) (base + (2 * 2 + 1) + k.val / 3)
          (2 * a.val + ow.val / 128 + k.val % 3) * x3 (ix3 k (⟨128 * 1 + a.val, by omega⟩ : Fin 256) ow) := by
  simp only [View.ld_unit_zero (S := S128x8x256) zero_offsets, View.ld_unit_zero (S := S1x128x256) zero_offsets]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    shapeCast_self, shapeCast_ab_1ab_apply, shapeCast_1ab_ab_apply, addf_apply, mulf_apply, plane_apply, broadcast_apply, zero_word,
    copy_left_apply x0 x1 x2 Pd base h1 h0 h2 hl, copy_mid_apply x0 x1 x2 Pd base h1 h0 h2,
    copy_right_apply x0 x1 x2 Pd base h1 h0 h2 hr]
  simp only [ld_lower x3]
  rw [← sum_nine]
  rfl

/-- Output channel 2 of the block, upper half of the rows: the taps start at row `base + 4`. -/
theorem piece_2_0 (u : Fin 1) (a : Fin 128) (ow : Fin 256) :
    k0_pay27 (k0_pay5 (View.ld x0 r0_0) (View.ld x1 r0_1) (View.ld x2 r0_1)) (k0_pay23 (View.ld x3 r0_2)) (k0_pay24 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (View.ld x3 r0_2)) (k0_pay25 (k0_pay4 (View.ld x0 r0_0) (View.ld x1 r0_1) (View.ld x2 r0_1))) (k0_pay26 (View.ld x3 r0_2)) (ix3 u a ow)
      = ∑ k : Fin 9, Pd (⟨ow.val % 128, Nat.mod_lt _ (by decide)⟩ : Fin 128) (base + (2 * 2 + 0) + k.val / 3)
          (2 * a.val + ow.val / 128 + k.val % 3) * x3 (ix3 k (⟨128 * 0 + a.val, by omega⟩ : Fin 256) ow) := by
  simp only [View.ld_unit_zero (S := S128x8x256) zero_offsets, View.ld_unit_zero (S := S1x128x256) zero_offsets]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    shapeCast_self, shapeCast_ab_1ab_apply, shapeCast_1ab_ab_apply, addf_apply, mulf_apply, plane_apply, broadcast_apply, zero_word,
    copy_left_apply x0 x1 x2 Pd base h1 h0 h2 hl, copy_mid_apply x0 x1 x2 Pd base h1 h0 h2,
    copy_right_apply x0 x1 x2 Pd base h1 h0 h2 hr]
  simp only [ld_upper x3]
  rw [← sum_nine]
  rfl

/-- Output channel 1 of the block, lower half of the rows: the taps start at row `base + 3`. -/
theorem piece_1_1 (u : Fin 1) (a : Fin 128) (ow : Fin 256) :
    k0_pay22 (k0_pay20 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (View.ld x3 r0_4)) (k0_pay21 (k0_pay5 (View.ld x0 r0_0) (View.ld x1 r0_1) (View.ld x2 r0_1)) (View.ld x3 r0_4)) (ix3 u a ow)
      = ∑ k : Fin 9, Pd (⟨ow.val % 128, Nat.mod_lt _ (by decide)⟩ : Fin 128) (base + (2 * 1 + 1) + k.val / 3)
          (2 * a.val + ow.val / 128 + k.val % 3) * x3 (ix3 k (⟨128 * 1 + a.val, by omega⟩ : Fin 256) ow) := by
  simp only [View.ld_unit_zero (S := S128x8x256) zero_offsets, View.ld_unit_zero (S := S1x128x256) zero_offsets]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    shapeCast_self, shapeCast_ab_1ab_apply, shapeCast_1ab_ab_apply, addf_apply, mulf_apply, plane_apply, broadcast_apply, zero_word,
    copy_left_apply x0 x1 x2 Pd base h1 h0 h2 hl, copy_mid_apply x0 x1 x2 Pd base h1 h0 h2,
    copy_right_apply x0 x1 x2 Pd base h1 h0 h2 hr]
  simp only [ld_lower x3]
  rw [← sum_nine]
  rfl

/-- Output channel 1 of the block, upper half of the rows: the taps start at row `base + 2`. -/
theorem piece_1_0 (u : Fin 1) (a : Fin 128) (ow : Fin 256) :
    k0_pay18 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (k0_pay15 (View.ld x3 r0_2)) (k0_pay16 (F := Ideal)) (k0_pay17 (k0_pay3 (View.ld x0 r0_0) (View.ld x1 r0_1) (View.ld x2 r0_1))) (ix3 u a ow)
      = ∑ k : Fin 9, Pd (⟨ow.val % 128, Nat.mod_lt _ (by decide)⟩ : Fin 128) (base + (2 * 1 + 0) + k.val / 3)
          (2 * a.val + ow.val / 128 + k.val % 3) * x3 (ix3 k (⟨128 * 0 + a.val, by omega⟩ : Fin 256) ow) := by
  simp only [View.ld_unit_zero (S := S128x8x256) zero_offsets, View.ld_unit_zero (S := S1x128x256) zero_offsets]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    shapeCast_self, shapeCast_ab_1ab_apply, shapeCast_1ab_ab_apply, addf_apply, mulf_apply, plane_apply, broadcast_apply, zero_word,
    copy_left_apply x0 x1 x2 Pd base h1 h0 h2 hl, copy_mid_apply x0 x1 x2 Pd base h1 h0 h2,
    copy_right_apply x0 x1 x2 Pd base h1 h0 h2 hr]
  simp only [ld_upper x3]
  rw [← sum_nine]
  rfl

/-- Output channel 0 of the block, lower half of the rows: the taps start at row `base + 1`. -/
theorem piece_0_1 (u : Fin 1) (a : Fin 128) (ow : Fin 256) :
    k0_pay14 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (k0_pay10 (View.ld x3 r0_4)) (k0_pay11 (k0_pay3 (View.ld x0 r0_0) (View.ld x1 r0_1) (View.ld x2 r0_1)) (View.ld x3 r0_4)) (k0_pay12 (k0_pay4 (View.ld x0 r0_0) (View.ld x1 r0_1) (View.ld x2 r0_1))) (k0_pay13 (View.ld x3 r0_4)) (ix3 u a ow)
      = ∑ k : Fin 9, Pd (⟨ow.val % 128, Nat.mod_lt _ (by decide)⟩ : Fin 128) (base + (2 * 0 + 1) + k.val / 3)
          (2 * a.val + ow.val / 128 + k.val % 3) * x3 (ix3 k (⟨128 * 1 + a.val, by omega⟩ : Fin 256) ow) := by
  simp only [View.ld_unit_zero (S := S128x8x256) zero_offsets, View.ld_unit_zero (S := S1x128x256) zero_offsets]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    shapeCast_self, shapeCast_ab_1ab_apply, shapeCast_1ab_ab_apply, addf_apply, mulf_apply, plane_apply, broadcast_apply, zero_word,
    copy_left_apply x0 x1 x2 Pd base h1 h0 h2 hl, copy_mid_apply x0 x1 x2 Pd base h1 h0 h2,
    copy_right_apply x0 x1 x2 Pd base h1 h0 h2 hr]
  simp only [ld_lower x3]
  rw [← sum_nine]
  rfl

/-- Output channel 0 of the block, upper half of the rows: the taps start at row `base + 0`. -/
theorem piece_0_0 (u : Fin 1) (a : Fin 128) (ow : Fin 256) :
    k0_pay9 (k0_pay3 (View.ld x0 r0_0) (View.ld x1 r0_1) (View.ld x2 r0_1)) (k0_pay4 (View.ld x0 r0_0) (View.ld x1 r0_1) (View.ld x2 r0_1)) (k0_pay5 (View.ld x0 r0_0) (View.ld x1 r0_1) (View.ld x2 r0_1)) (k0_pay6 (View.ld x3 r0_2)) (k0_pay7 (View.ld x0 r0_0) (View.ld x1 r0_1) (View.ld x2 r0_1) (View.ld x3 r0_2)) (k0_pay8 (View.ld x0 r0_0) (View.ld x1 r0_1) (View.ld x2 r0_1) (View.ld x3 r0_2)) (ix3 u a ow)
      = ∑ k : Fin 9, Pd (⟨ow.val % 128, Nat.mod_lt _ (by decide)⟩ : Fin 128) (base + (2 * 0 + 0) + k.val / 3)
          (2 * a.val + ow.val / 128 + k.val % 3) * x3 (ix3 k (⟨128 * 0 + a.val, by omega⟩ : Fin 256) ow) := by
  simp only [View.ld_unit_zero (S := S128x8x256) zero_offsets, View.ld_unit_zero (S := S1x128x256) zero_offsets]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    shapeCast_self, shapeCast_ab_1ab_apply, shapeCast_1ab_ab_apply, addf_apply, mulf_apply, plane_apply, broadcast_apply, zero_word,
    copy_left_apply x0 x1 x2 Pd base h1 h0 h2 hl, copy_mid_apply x0 x1 x2 Pd base h1 h0 h2,
    copy_right_apply x0 x1 x2 Pd base h1 h0 h2 hr]
  simp only [ld_upper x3]
  rw [← sum_nine]
  rfl

/-- The block after the step is the nine-tap sum at every entry: each of the eight stored pieces is that sum at its own
    rows, and the pieces cover the block. -/
theorem out_eq_blockVal (y : S4x256x256.Idx) : out0_4 x0 x1 x2 x3 y = blockVal x3 Pd base y := by
  unfold out0_4
  refine View.canon_apply_of_pieces (Val := Elt Ideal) (e := .f32) (blockVal x3 Pd base) _ ?_ y (cover0_4 _ _ _ _ _ _ _ _ y)
  intro p hp
  simp only [List.mem_cons, List.mem_nil_iff, or_false] at hp
  rcases hp with rfl | rfl | rfl | rfl | rfl | rfl | rfl | rfl
  · intro x
    obtain ⟨u, a, ow, rfl⟩ : ∃ (u : Fin 1) (a : Fin 128) (ow : Fin 256), x = ix3 u a ow :=
      ⟨x 0, x 1, x 2, eq_ix3 (n0 := 1) (n1 := 128) (n2 := 256) x⟩
    refine (piece_3_1 x0 x1 x2 x3 Pd base h1 h0 h2 hl hr u a ow).trans
      (blockVal_of_coords x3 Pd base _ 3 1 a ow (by omega) ?_ ?_ ?_).symm
    · show 3 + 1 * u.val = 3; omega
    · show 128 + 1 * a.val = 128 * 1 + a.val; omega
    · show 0 + 1 * ow.val = ow.val; omega
  · intro x
    obtain ⟨u, a, ow, rfl⟩ : ∃ (u : Fin 1) (a : Fin 128) (ow : Fin 256), x = ix3 u a ow :=
      ⟨x 0, x 1, x 2, eq_ix3 (n0 := 1) (n1 := 128) (n2 := 256) x⟩
    refine (piece_3_0 x0 x1 x2 x3 Pd base h1 h0 h2 hl hr u a ow).trans
      (blockVal_of_coords x3 Pd base _ 3 0 a ow (by omega) ?_ ?_ ?_).symm
    · show 3 + 1 * u.val = 3; omega
    · show 0 + 1 * a.val = 128 * 0 + a.val; omega
    · show 0 + 1 * ow.val = ow.val; omega
  · intro x
    obtain ⟨u, a, ow, rfl⟩ : ∃ (u : Fin 1) (a : Fin 128) (ow : Fin 256), x = ix3 u a ow :=
      ⟨x 0, x 1, x 2, eq_ix3 (n0 := 1) (n1 := 128) (n2 := 256) x⟩
    refine (piece_2_1 x0 x1 x2 x3 Pd base h1 h0 h2 hl hr u a ow).trans
      (blockVal_of_coords x3 Pd base _ 2 1 a ow (by omega) ?_ ?_ ?_).symm
    · show 2 + 1 * u.val = 2; omega
    · show 128 + 1 * a.val = 128 * 1 + a.val; omega
    · show 0 + 1 * ow.val = ow.val; omega
  · intro x
    obtain ⟨u, a, ow, rfl⟩ : ∃ (u : Fin 1) (a : Fin 128) (ow : Fin 256), x = ix3 u a ow :=
      ⟨x 0, x 1, x 2, eq_ix3 (n0 := 1) (n1 := 128) (n2 := 256) x⟩
    refine (piece_2_0 x0 x1 x2 x3 Pd base h1 h0 h2 hl hr u a ow).trans
      (blockVal_of_coords x3 Pd base _ 2 0 a ow (by omega) ?_ ?_ ?_).symm
    · show 2 + 1 * u.val = 2; omega
    · show 0 + 1 * a.val = 128 * 0 + a.val; omega
    · show 0 + 1 * ow.val = ow.val; omega
  · intro x
    obtain ⟨u, a, ow, rfl⟩ : ∃ (u : Fin 1) (a : Fin 128) (ow : Fin 256), x = ix3 u a ow :=
      ⟨x 0, x 1, x 2, eq_ix3 (n0 := 1) (n1 := 128) (n2 := 256) x⟩
    refine (piece_1_1 x0 x1 x2 x3 Pd base h1 h0 h2 hl hr u a ow).trans
      (blockVal_of_coords x3 Pd base _ 1 1 a ow (by omega) ?_ ?_ ?_).symm
    · show 1 + 1 * u.val = 1; omega
    · show 128 + 1 * a.val = 128 * 1 + a.val; omega
    · show 0 + 1 * ow.val = ow.val; omega
  · intro x
    obtain ⟨u, a, ow, rfl⟩ : ∃ (u : Fin 1) (a : Fin 128) (ow : Fin 256), x = ix3 u a ow :=
      ⟨x 0, x 1, x 2, eq_ix3 (n0 := 1) (n1 := 128) (n2 := 256) x⟩
    refine (piece_1_0 x0 x1 x2 x3 Pd base h1 h0 h2 hl hr u a ow).trans
      (blockVal_of_coords x3 Pd base _ 1 0 a ow (by omega) ?_ ?_ ?_).symm
    · show 1 + 1 * u.val = 1; omega
    · show 0 + 1 * a.val = 128 * 0 + a.val; omega
    · show 0 + 1 * ow.val = ow.val; omega
  · intro x
    obtain ⟨u, a, ow, rfl⟩ : ∃ (u : Fin 1) (a : Fin 128) (ow : Fin 256), x = ix3 u a ow :=
      ⟨x 0, x 1, x 2, eq_ix3 (n0 := 1) (n1 := 128) (n2 := 256) x⟩
    refine (piece_0_1 x0 x1 x2 x3 Pd base h1 h0 h2 hl hr u a ow).trans
      (blockVal_of_coords x3 Pd base _ 0 1 a ow (by omega) ?_ ?_ ?_).symm
    · show 0 + 1 * u.val = 0; omega
    · show 128 + 1 * a.val = 128 * 1 + a.val; omega
    · show 0 + 1 * ow.val = ow.val; omega
  · intro x
    obtain ⟨u, a, ow, rfl⟩ : ∃ (u : Fin 1) (a : Fin 128) (ow : Fin 256), x = ix3 u a ow :=
      ⟨x 0, x 1, x 2, eq_ix3 (n0 := 1) (n1 := 128) (n2 := 256) x⟩
    refine (piece_0_0 x0 x1 x2 x3 Pd base h1 h0 h2 hl hr u a ow).trans
      (blockVal_of_coords x3 Pd base _ 0 0 a ow (by omega) ?_ ?_ ?_).symm
    · show 0 + 1 * u.val = 0; omega
    · show 0 + 1 * a.val = 128 * 0 + a.val; omega
    · show 0 + 1 * ow.val = ow.val; omega

/-- What one grid step leaves in the output block, entry `(tt, oh, ow)`, when the three image blocks it loads are
    rows `base … base + 9` of a zero-bordered image `Pd` (the upper halo row, eight rows, the lower halo row; columns
    shifted by the border): the nine taps around padded position `(base + 2 tt + oh / 128, 2 (oh mod 128) + ow / 128)`
    of channel `ow mod 128`, each times the loaded weight at `(k, oh, ow)`. -/
theorem body_apply (tt : Fin 4) (oh ow : Fin 256) :
    out0_4 x0 x1 x2 x3 (ix3 tt oh ow)
      = ∑ k : Fin 9, Pd (⟨ow.val % 128, Nat.mod_lt _ (by decide)⟩ : Fin 128) (base + 2 * tt.val + oh.val / 128 + k.val / 3)
          (2 * (oh.val % 128) + ow.val / 128 + k.val % 3) * x3 (ix3 k oh ow) :=
  out_eq_blockVal x0 x1 x2 x3 Pd base h1 h0 h2 hl hr (ix3 tt oh ow)

end Step

end Cert.LocalConv.Body

end
-- ==== Proof.HostPrefix.lean ====
/-
  What the pipelined call finds in its four operand arrays, entry by entry, in terms of the program's two arguments:
  the image itself (its leading unit axis dropped), the two halo stacks — for each of the 32 row groups the padded
  image's row just above the group (padded row `8 g`) and just below it (padded row `8 g + 9`) —, and the weight
  table with the tap axis moved in front.
-/
import proofs.«168863_j47132971106931_2_alg».proof.Proof.Gen.KernelIdeal.Frame
import proofs.«168863_j47132971106931_2_alg».proof.Proof.Spec
import Idealize.ShloMosaic.Lib.ValueIdx
import Idealize.ShloMosaic.Lib.Pipeline.Value
import Idealize.ShloMosaic.Lib.StableHlo.Run
import Idealize.ShloMosaic.Lib.KernelVsHost
import Idealize.ShloMosaic.Lib.ValueLayout

noncomputable section

namespace Cert.LocalConv.Host

open Idealize.ShloMosaic Idealize.ShloMosaic.TcCoe Idealize.SL.Sem Idealize.ShloMosaic.ValueIdx
open Cert.KernelIdeal Cert.KernelIdeal.Gen Cert.LocalConv

/-! ## The layout operations of the host prefix, read at an index -/

local notation "gd" => gather_S128x258x256_S32x1_S128x32x256_02_1_n_n_1_1_1281256

/-- The row gather read at an index: result entry `(cc, g, wv)` is the operand's entry `(cc, row, wv)`, `row` the
    start index of group `g` read signed and clamped into `[0, 257]`. -/
theorem gather_rows_apply {α : Type} {wd : Nat} (x : S128x258x256.Idx → α) (idx : IVec S32x1 wd)
    (cc : Fin 128) (g : Fin 32) (wv : Fin 256) (row : Fin 258)
    (hrow : min (idx (ix2 g (0 : Fin 1))).toInt.toNat 257 = row.val) :
    Host.gather gd x idx (ix3 cc g wv) = x (ix3 cc row wv) := by
  unfold Host.gather
  congr 1
  funext a
  refine Fin.ext ?_
  show GatherDims.start gd (ix3 cc g wv) idx a + GatherDims.batchCoord gd (ix3 cc g wv) a
    + GatherDims.offCoord gd (ix3 cc g wv) a = _
  rw [GatherDims.batchCoord_eq_zero _ _ _ List.not_mem_nil, Nat.add_zero]
  match a with
  | ⟨0, _⟩ =>
    have h0 : GatherDims.start gd (ix3 cc g wv) idx ⟨0, by decide⟩ = 0 := by
      unfold GatherDims.start
      rw [dif_neg (by decide)]
    have h1 : GatherDims.offCoord gd (ix3 cc g wv) ⟨0, by decide⟩ = cc.val := by
      unfold GatherDims.offCoord
      rw [dif_pos (by decide)]
      rfl
    rw [h0, h1, Nat.zero_add]
  | ⟨1, _⟩ =>
    have h1 : GatherDims.offCoord gd (ix3 cc g wv) ⟨1, by decide⟩ = 0 :=
      GatherDims.offCoord_eq_zero _ _ _ (by decide)
    have h0 : GatherDims.start gd (ix3 cc g wv) idx ⟨1, by decide⟩ = min (idx (ix2 g (0 : Fin 1))).toInt.toNat 257 := by
      unfold GatherDims.start
      rw [dif_pos (by decide)]
      have hsi : GatherDims.siIdx gd (ix3 cc g wv) ⟨List.idxOf (⟨1, by decide⟩ : Fin S128x258x256.rank) (GatherDims.startIndexMap gd),
          List.idxOf_lt_length_iff.2 (by decide)⟩ = ix2 g (0 : Fin 1) := by
        funext b; refine Fin.ext ?_
        match b with
        | ⟨0, _⟩ => rfl
        | ⟨1, _⟩ => rfl
      rw [hsi]
      rfl
    rw [h0, h1, Nat.add_zero, hrow]
  | ⟨2, _⟩ =>
    have h0 : GatherDims.start gd (ix3 cc g wv) idx ⟨2, by decide⟩ = 0 := by
      unfold GatherDims.start
      rw [dif_neg (by decide)]
    have h1 : GatherDims.offCoord gd (ix3 cc g wv) ⟨2, by decide⟩ = wv.val := by
      unfold GatherDims.offCoord
      rw [dif_pos (by decide)]
      rfl
    rw [h0, h1, Nat.zero_add]

/-- The integer zero converted to a float is the extended real zero: the padding value. -/
theorem padval_zero :
    (sitofp (F := Ideal) .f32 (constantI S_ 32 0#32) : S_.Idx → EReal) (Shape.Idx.first h_S_) = 0 := by
  show (((0#32 : BitVec 32).toInt : ℝ) : EReal) = 0
  simp

/-- The padded array: the image, its unit axis dropped, bordered by one row of the padding value above and below. -/
abbrev paddedArr (X : SIn.Idx → EReal) : S128x258x256.Idx → EReal :=
  pad S128x258x256 ![0, 1, 0] ![0, 1, 0] ![0, 0, 0]
    (shapeCast S128x256x256 X shapeCasts_S1x128x256x256_S128x256x256)
    (sitofp (F := Ideal) .f32 (constantI S_ 32 0#32)) pads_S128x256x256_S128x258x256_000_110_000 h_S_

/-- The padded array at `(cc, row, w)` is the zero-bordered image at padded row `row` and padded column `w + 1`: rows
    `1 … 256` are the image's rows `0 … 255`, rows `0` and `257` the border. -/
theorem paddedArr_apply (X : SIn.Idx → EReal) (cc : Fin 128) (row : Fin 258) (w : Fin 256) :
    paddedArr X (ix3 cc row w) = padded X cc row.val (w.val + 1) := by
  have hrow := row.isLt
  have hw := w.isLt
  unfold padded
  by_cases h : 1 ≤ row.val ∧ row.val ≤ 256
  · rw [dif_pos ⟨h, by omega, by omega⟩]
    refine (pad_apply_of_inside _ _ _ _ _ _ _ _ (ix3 cc (⟨row.val - 1, by omega⟩ : Fin 256) w) ?_).trans ?_
    · intro a
      match a with
      | ⟨0, _⟩ => show cc.val = 0 + cc.val * (0 + 1); omega
      | ⟨1, _⟩ => show row.val = 1 + (row.val - 1) * (0 + 1); omega
      | ⟨2, _⟩ => show w.val = 0 + w.val * (0 + 1); omega
    · refine (shapeCast_1abc_abc_apply _ _ cc _ w).trans ?_
      rfl
  · rw [dif_neg (fun H => h H.1)]
    refine (pad_apply_of_not_inside _ _ _ _ _ _ _ _ (⟨1, by decide⟩ : Fin S128x256x256.rank) ?_).trans padval_zero
    intro hin
    have h1 : 1 ≤ row.val := hin.1
    have h2 : (row.val - 1) / (0 + 1) < 256 := hin.2.2
    rw [Nat.zero_add, Nat.div_one] at h2
    exact h ⟨h1, by omega⟩

/-- The start indices of a halo stack from its table of rows: the table plus 258 where the constant mask is set — it is
    nowhere —, else the table; as a column. -/
abbrev startIdx (tab : Fin 32 → BitVec 32) : IVec S32x1 32 :=
  broadcastInDim S32x1 ![0] bcast_S32_S32x1_0
    (select (constantI S32 1 0#1)
      (addi (fun i => tab (S32.rowMajor i)) (broadcastInDim S32 ![] bcast_S_S32 (constantI S_ 32 258#32)))
      (fun i => tab (S32.rowMajor i)))

/-- Group `g`'s start index is the table's entry `g`. -/
theorem startIdx_apply (tab : Fin 32 → BitVec 32) (g : Fin 32) : startIdx tab (ix2 g (0 : Fin 1)) = tab g := by
  refine (broadcastInDim_apply _ _ _ _ (ix1 g) ?_).trans ?_
  · intro a
    obtain rfl : a = 0 := Subsingleton.elim _ _
    rfl
  · rw [select_apply]
    show Scalar.select 0#1 _ _ = _
    rw [select_zero]
    show tab (S32.rowMajor (ix1 g)) = tab g
    congr 1
    exact Fin.ext (Shape.rowMajor_val_one _)

/-- A HALO STACK read at `(g, cc, w)`: the gather of the padded array's rows at the table's start indices, its group
    axis moved in front, is the zero-bordered image at padded row `r g` — the table's entry `g`, a row of the padded
    array — and padded column `w + 1`. -/
theorem halo_apply (X : SIn.Idx → EReal) (tab : Fin 32 → BitVec 32) (r : Fin 32 → Nat)
    (htab : ∀ g, (tab g).toInt.toNat = r g) (hr : ∀ g, r g ≤ 257) (g : Fin 32) (cc : Fin 128) (w : Fin 256) :
    transpose S32x128x256 [1, 0, 2] (Host.gather gd (paddedArr X) (startIdx tab))
      transposes_S128x32x256_S32x128x256_1_0_2 (ix3 g cc w)
      = padded X cc (r g) (w.val + 1) := by
  refine (transpose_apply _ _ _ _ (ix3 cc g w) ?_).trans ?_
  · intro b
    match b with
    | ⟨0, _⟩ => rfl
    | ⟨1, _⟩ => rfl
    | ⟨2, _⟩ => rfl
  · refine (gather_rows_apply _ _ cc g w ⟨r g, by have := hr g; omega⟩ ?_).trans ?_
    · rw [startIdx_apply, htab]
      exact Nat.min_eq_left (hr g)
    · exact paddedArr_apply X cc _ w

/-- The weight table reshaped to `(oh, ow, k)` with the tap axis then moved in front, read at `(k, oh, ow)`: the table's
    row `oh · 256 + ow`, column `k`. -/
theorem weights_apply (Wt : SW.Idx → EReal) (k : Fin 9) (oh ow : Fin 256) :
    transpose S9x256x256 [2, 0, 1] (shapeCast S256x256x9 Wt shapeCasts_S65536x9_S256x256x9)
      transposes_S256x256x9_S9x256x256_2_0_1 (ix3 k oh ow) = weightAt Wt oh ow k := by
  refine (transpose_apply _ _ _ _ (ix3 oh ow k) ?_).trans ?_
  · intro b
    match b with
    | ⟨0, _⟩ => rfl
    | ⟨1, _⟩ => rfl
    | ⟨2, _⟩ => rfl
  · unfold weightAt
    refine shapeCast_apply _ _ _ _ ?_
    rw [Shape.rowMajor_val_two, Shape.rowMajor_val_three]
    rfl

/-! ## The four operand arrays as compositions of those operations -/

variable (m : (ℓ : Loc nD τ sig) → Buf (Elt Ideal) ℓ)

/-- The image operand is the argument reshaped. -/
theorem v0_term (c : Dev nD) :
    (V m c main_v0 : S128x256x256.Idx → EReal)
      = shapeCast (s := SIn) S128x256x256 (m ((c : Thread nD τ).loc main_arg0))
          shapeCasts_S1x128x256x256_S128x256x256 := by
  dsimp only [Gen.V, Gen.V0]
  simp only [Gen.hostOps0, Gen.hostOps0_1, Gen.hostOps0_2, List.flatten_cons, List.flatten_nil, List.append_nil,
    List.cons_append, List.nil_append]
  after_results
  rfl

/-- The upper halo stack is the halo stack of the table `8 g`. -/
theorem v7_term (c : Dev nD) :
    (V m c main_v7 : S32x128x256.Idx → EReal)
      = transpose S32x128x256 [1, 0, 2]
          (Host.gather gd (paddedArr (m ((c : Thread nD τ).loc main_arg0))) (startIdx lit0))
          transposes_S128x32x256_S32x128x256_1_0_2 := by
  dsimp only [Gen.V, Gen.V0]
  simp only [Gen.hostOps0, Gen.hostOps0_1, Gen.hostOps0_2, List.flatten_cons, List.flatten_nil, List.append_nil,
    List.cons_append, List.nil_append]
  after_results
  rfl

/-- The lower halo stack is the halo stack of the table `8 g + 9`. -/
theorem v13_term (c : Dev nD) :
    (V m c main_v13 : S32x128x256.Idx → EReal)
      = transpose S32x128x256 [1, 0, 2]
          (Host.gather gd (paddedArr (m ((c : Thread nD τ).loc main_arg0))) (startIdx lit1))
          transposes_S128x32x256_S32x128x256_1_0_2 := by
  dsimp only [Gen.V, Gen.V0]
  simp only [Gen.hostOps0, Gen.hostOps0_1, Gen.hostOps0_2, List.flatten_cons, List.flatten_nil, List.append_nil,
    List.cons_append, List.nil_append]
  after_results
  rfl

/-- The weight operand is the table reshaped to `(oh, ow, k)` with the tap axis then moved in front. -/
theorem v15_term (c : Dev nD) :
    (V m c main_v15 : S9x256x256.Idx → EReal)
      = transpose S9x256x256 [2, 0, 1]
          (shapeCast (s := SW) S256x256x9 (m ((c : Thread nD τ).loc main_arg1)) shapeCasts_S65536x9_S256x256x9)
          transposes_S256x256x9_S9x256x256_2_0_1 := by
  dsimp only [Gen.V, Gen.V0]
  simp only [Gen.hostOps0, Gen.hostOps0_1, Gen.hostOps0_2, List.flatten_cons, List.flatten_nil, List.append_nil,
    List.cons_append, List.nil_append]
  after_results
  rfl

/-- The first table's entry `g` is `8 g`. -/
theorem lit0_val : ∀ g : Fin 32, (lit0 g).toInt.toNat = 8 * g.val := by decide

/-- The second table's entry `g` is `8 g + 9`. -/
theorem lit1_val : ∀ g : Fin 32, (lit1 g).toInt.toNat = 8 * g.val + 9 := by decide

/-- The image operand: the argument with its unit axis dropped. -/
theorem v0_apply (c : Dev nD) (cc : Fin 128) (h w : Fin 256) :
    (V m c main_v0 : S128x256x256.Idx → EReal) (ix3 cc h w)
      = (m ((c : Thread nD τ).loc main_arg0) : SIn.Idx → EReal) (ix4 (0 : Fin 1) cc h w) := by
  rw [v0_term]
  exact shapeCast_1abc_abc_apply _ _ cc h w

/-- The upper halo stack: group `g`'s entry is padded row `8 g` (the image's row `8 g − 1`, zero for the first group). -/
theorem v7_apply (c : Dev nD) (g : Fin 32) (cc : Fin 128) (w : Fin 256) :
    (V m c main_v7 : S32x128x256.Idx → EReal) (ix3 g cc w)
      = padded (m ((c : Thread nD τ).loc main_arg0)) cc (8 * g.val) (w.val + 1) := by
  rw [v7_term]
  exact halo_apply _ lit0 (fun g => 8 * g.val) lit0_val (fun g => by have := g.isLt; omega) g cc w

/-- The lower halo stack: group `g`'s entry is padded row `8 g + 9` (the image's row `8 g + 8`, zero for the last group). -/
theorem v13_apply (c : Dev nD) (g : Fin 32) (cc : Fin 128) (w : Fin 256) :
    (V m c main_v13 : S32x128x256.Idx → EReal) (ix3 g cc w)
      = padded (m ((c : Thread nD τ).loc main_arg0)) cc (8 * g.val + 9) (w.val + 1) := by
  rw [v13_term]
  exact halo_apply _ lit1 (fun g => 8 * g.val + 9) lit1_val (fun g => by have := g.isLt; omega) g cc w

/-- The weight operand: tap `k` of output position `(oh, ow)`. -/
theorem v15_apply (c : Dev nD) (k : Fin 9) (oh ow : Fin 256) :
    (V m c main_v15 : S9x256x256.Idx → EReal) (ix3 k oh ow)
      = weightAt (m ((c : Thread nD τ).loc main_arg1)) oh ow k := by
  rw [v15_term]
  exact weights_apply _ k oh ow

end Cert.LocalConv.Host

end
-- ==== Proof.KernelValue.lean ====
/-
  From one grid step to the kernel program's whole run.

  The call walks 32 row groups. At group `t` it loads eight image rows `8 t … 8 t + 7` of every channel, the padded
  image's row just above them and the row just below them, and the whole weight table; it writes four output channels
  `4 t … 4 t + 3`. Read through the blocks, one grid step is therefore the nine-tap sum of the specification at base row
  `8 t`, and `8 t + 2 tt = 2 (4 t + tt)` makes it the specification's entry for output channel `4 t + tt`. The 32 output
  blocks tile the output array, so the array ends holding the specification's sum everywhere; the one operation after
  the call only puts a unit axis in front.
-/
import proofs.«168863_j47132971106931_2_alg».proof.Proof.Gen.KernelIdeal.Frame
import proofs.«168863_j47132971106931_2_alg».proof.Proof.Spec
import proofs.«168863_j47132971106931_2_alg».proof.Proof.Body
import proofs.«168863_j47132971106931_2_alg».proof.Proof.HostPrefix
import Idealize.ShloMosaic.Lib.Pipeline.Value
import Idealize.ShloMosaic.Lib.ValueIdx
import Idealize.ShloMosaic.Lib.StableHlo.Run

set_option maxRecDepth 16384

noncomputable section

open scoped BigOperators

namespace Cert.LocalConv.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.LocalConv

variable (m : (ℓ : Loc nD τ sig) → Buf (Elt Ideal) ℓ) (ρ : Dev nD → PrngReg)

/-! ## The index maps -/

/-- The printed index maps over the one grid axis: the image window moves along its row axis, the two halo windows and
    the output window along their leading axis, the weight window not at all. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 32 := lt_of_lt_of_eq t.isLt N_0

/-! ## The blocks

A block's entry sits in its array, on each axis, at the block index times the block's extent plus the entry's own
coordinate. -/

/-- The image block at group `t`: rows `8 t … 8 t + 7` of every channel. -/
theorem blk0_apply (c : Dev nD) (t : Fin cfg0.N) (cc : Fin 128) (r : Fin 8) (w : Fin 256) :
    iblk m c 0 t (ix3 cc r w)
      = (V m c main_v0 : S128x256x256.Idx → EReal) (ix3 cc (⟨8 * t.val + r.val, by have := point_lt t; have := r.isLt; omega⟩ : Fin 256) w) := by
  obtain ⟨e0, e1, e2, -⟩ := idx_facts t
  show V m c main_v0 (((cfg0.win 0).blk t).view.emb (ix3 cc r w)) = _
  refine congrArg _ (funext fun a => Fin.ext ?_)
  match a with
  | ⟨0, _⟩ => show win0_0.index t (0 : Fin 3) * 128 + 1 * cc.val = cc.val; omega
  | ⟨1, _⟩ => show win0_0.index t (1 : Fin 3) * 8 + 1 * r.val = 8 * t.val + r.val; omega
  | ⟨2, _⟩ => show win0_0.index t (2 : Fin 3) * 256 + 1 * w.val = w.val; omega

/-- The upper halo block at group `t`: entry `t` of the upper halo stack. -/
theorem blk1_apply (c : Dev nD) (t : Fin cfg0.N) (cc : Fin 128) (w : Fin 256) :
    iblk m c 1 t (ix3 (0 : Fin 1) cc w)
      = (V m c main_v7 : S32x128x256.Idx → EReal) (ix3 (⟨t.val, point_lt t⟩ : Fin 32) cc w) := by
  obtain ⟨-, -, -, e0, e1, e2, -⟩ := idx_facts t
  show V m c main_v7 (((cfg0.win 1).blk t).view.emb (ix3 (0 : Fin 1) cc w)) = _
  refine congrArg _ (funext fun a => Fin.ext ?_)
  match a with
  | ⟨0, _⟩ => show win0_1.index t (0 : Fin 3) * 1 + 1 * (0 : Fin 1).val = t.val; rw [e0]; show t.val * 1 + 1 * 0 = t.val; omega
  | ⟨1, _⟩ => show win0_1.index t (1 : Fin 3) * 128 + 1 * cc.val = cc.val; omega
  | ⟨2, _⟩ => show win0_1.index t (2 : Fin 3) * 256 + 1 * w.val = w.val; omega

/-- The lower halo block at group `t`: entry `t` of the lower halo stack. -/
theorem blk2_apply (c : Dev nD) (t : Fin cfg0.N) (cc : Fin 128) (w : Fin 256) :
    iblk m c 2 t (ix3 (0 : Fin 1) cc w)
      = (V m c main_v13 : S32x128x256.Idx → EReal) (ix3 (⟨t.val, point_lt t⟩ : Fin 32) cc w) := by
  obtain ⟨-, -, -, -, -, -, e0, e1, e2, -⟩ := idx_facts t
  show V m c main_v13 (((cfg0.win 2).blk t).view.emb (ix3 (0 : Fin 1) cc w)) = _
  refine congrArg _ (funext fun a => Fin.ext ?_)
  match a with
  | ⟨0, _⟩ => show win0_2.index t (0 : Fin 3) * 1 + 1 * (0 : Fin 1).val = t.val; rw [e0]; show t.val * 1 + 1 * 0 = t.val; omega
  | ⟨1, _⟩ => show win0_2.index t (1 : Fin 3) * 128 + 1 * cc.val = cc.val; omega
  | ⟨2, _⟩ => show win0_2.index t (2 : Fin 3) * 256 + 1 * w.val = w.val; omega

/-- The weight block is the whole weight operand at every group. -/
theorem blk3_apply (c : Dev nD) (t : Fin cfg0.N) (k : Fin 9) (oh ow : Fin 256) :
    iblk m c 3 t (ix3 k oh ow) = (V m c main_v15 : S9x256x256.Idx → EReal) (ix3 k oh ow) := by
  obtain ⟨-, -, -, -, -, -, -, -, -, e0, e1, e2, -⟩ := idx_facts t
  show V m c main_v15 (((cfg0.win 3).blk t).view.emb (ix3 k oh ow)) = _
  refine congrArg _ (funext fun a => Fin.ext ?_)
  match a with
  | ⟨0, _⟩ => show win0_3.index t (0 : Fin 3) * 9 + 1 * k.val = k.val; omega
  | ⟨1, _⟩ => show win0_3.index t (1 : Fin 3) * 256 + 1 * oh.val = oh.val; omega
  | ⟨2, _⟩ => show win0_3.index t (2 : Fin 3) * 256 + 1 * ow.val = ow.val; omega

/-! ## One grid step -/

/-- The specification's sum laid out over the call's output array (the leading unit axis not yet put back). -/
abbrev G3 (c : Dev nD) : S128x256x256.Idx → EReal :=
  fun i => conv (m ((c : Thread nD τ).loc main_arg0)) (m ((c : Thread nD τ).loc main_arg1)) (i 0) (i 1) (i 2)

/-- Group `t`'s step leaves, at entry `(tt, oh, ow)` of its output block, the specification's sum for output channel
    `4 t + tt`: the blocks are rows `8 t … 8 t + 9` of the padded image, and `8 t + 2 tt = 2 (4 t + tt)`. -/
theorem step_apply (c : Dev nD) (t : Fin cfg0.N) (tt : Fin 4) (oh ow : Fin 256) :
    out0_4 (iblk m c 0 t) (iblk m c 1 t) (iblk m c 2 t) (iblk m c 3 t) (ix3 tt oh ow)
      = conv (m ((c : Thread nD τ).loc main_arg0)) (m ((c : Thread nD τ).loc main_arg1))
          (⟨4 * t.val + tt.val, by have := point_lt t; have := tt.isLt; omega⟩ : Fin 128) oh ow := by
  refine (Body.body_apply (iblk m c 0 t) (iblk m c 1 t) (iblk m c 2 t) (iblk m c 3 t)
    (padded (m ((c : Thread nD τ).loc main_arg0))) (8 * t.val)
    (fun cc w => (blk1_apply m c t cc w).trans (Host.v7_apply m c ⟨t.val, point_lt t⟩ cc w))
    (fun cc r w => ((blk0_apply m c t cc r w).trans (Host.v0_apply m c cc _ w)).trans (padded_inside _ cc _ w).symm)
    (fun cc w => (blk2_apply m c t cc w).trans (Host.v13_apply m c ⟨t.val, point_lt t⟩ cc w))
    (fun cc h => padded_col_out _ cc h 0 (by omega)) (fun cc h => padded_col_out _ cc h 257 (by omega))
    tt oh ow).trans ?_
  unfold conv
  refine Finset.sum_congr rfl fun k _ => ?_
  rw [blk3_apply m c t k oh ow, Host.v15_apply m c k oh ow]
  have e : 8 * t.val + 2 * tt.val + oh.val / 128 + k.val / 3 = 2 * (4 * t.val + tt.val) + oh.val / 128 + k.val / 3 := by omega
  rw [e]

/-- Where group `t`'s output block sits in the output array: channels `4 t … 4 t + 3`, every row and column. -/
theorem blk4_emb (t : Fin cfg0.N) (tt : Fin 4) (oh ow : Fin 256) :
    ((cfg0.win 4).blk t).view.emb (ix3 tt oh ow)
      = (ix3 (⟨4 * t.val + tt.val, by have := point_lt t; have := tt.isLt; omega⟩ : Fin 128) oh ow : S128x256x256.Idx) := by
  obtain ⟨-, -, -, -, -, -, -, -, -, -, -, -, e0, e1, e2⟩ := idx_facts t
  refine funext fun a => Fin.ext ?_
  match a with
  | ⟨0, _⟩ => show win0_4.index t (0 : Fin 3) * 4 + 1 * tt.val = 4 * t.val + tt.val; omega
  | ⟨1, _⟩ => show win0_4.index t (1 : Fin 3) * 256 + 1 * oh.val = oh.val; omega
  | ⟨2, _⟩ => show win0_4.index t (2 : Fin 3) * 256 + 1 * ow.val = ow.val; omega

/-- What group `t` writes back is block `t` of the specification's array. -/
theorem flushed_eq (c : Dev nD) (t : Fin cfg0.N) :
    (dats m 0 c).flushed 4 t = ((cfg0.win 4).blk t).view.read (Elt Ideal) (G3 m c) := by
  show (cfg0.win 4).cut (grid0.coords t) ((dats m 0 c).after 4 t) = _
  rw [after0_4]
  funext y
  obtain ⟨tt, oh, ow, rfl⟩ : ∃ (tt : Fin 4) (oh ow : Fin 256), y = ix3 tt oh ow :=
    ⟨y 0, y 1, y 2, eq_ix3 (n0 := 4) (n1 := 256) (n2 := 256) y⟩
  show out0_4 (iblk m c 0 t) (iblk m c 1 t) (iblk m c 2 t) (iblk m c 3 t) (ix3 tt oh ow)
    = G3 m c (((cfg0.win 4).blk t).view.emb (ix3 tt oh ow))
  exact (step_apply m c t tt oh ow).trans (congrArg (G3 m c) (blk4_emb t tt oh ow)).symm

/-! ## The 32 output blocks tile the output array -/

/-- An index of the output array is in group `t`'s block iff each coordinate is in the block's range on its axis. -/
theorem mem_blk (t : Fin cfg0.N) (i : S128x256x256.Idx) :
    i ∈ ((cfg0.win 4).blk t).view.set ↔ ∀ a : Fin 3, win0_4.index t a * S4x256x256.size a ≤ (i a).val
      ∧ (i a).val < win0_4.index t a * S4x256x256.size a + S4x256x256.size a := by
  show i ∈ ((View.whole main_v16).slice (win0_4.rect t)).set ↔ _
  rw [View.set_slice_whole, Rect.mem_set_unit]
  exact Iff.rfl

/-- Output channel `i 0` is written by group `(i 0) / 4`, and every group writes back. -/
theorem cover (i : S128x256x256.Idx) :
    ∃ t : Fin cfg0.N, (cfg0.win 4).flush t = true ∧ i ∈ ((cfg0.win 4).blk t).view.set := by
  have hi0 : (i 0).val < 128 := (i 0).isLt
  have hi1 : (i 1).val < 256 := (i 1).isLt
  have hi2 : (i 2).val < 256 := (i 2).isLt
  obtain ⟨t, ht⟩ : ∃ t : Fin cfg0.N, t.val = (i 0).val / 4 :=
    ⟨⟨(i 0).val / 4, lt_of_lt_of_eq (by omega : (i 0).val / 4 < 32) N_0.symm⟩, rfl⟩
  obtain ⟨-, -, -, -, -, -, -, -, -, -, -, -, e0, e1, e2⟩ := idx_facts t
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- The call's output array after the run is the specification's array. -/
theorem final (c : Dev nD) : (dats m 0 c).arrAt 4 cfg0.N = G3 m c :=
  (dats m 0 c).arrAt_eq_of_cover 4 (G3 m c) (fun t _ => flushed_eq m c t) cover

/-! ## The operation after the call, and the run -/

/-- The result buffer after the run: the one operation after the call puts a unit axis in front of the call's
    output array. -/
theorem tail_apply (c : Dev nD) :
    Pipeline.afterTail₀ cfgs (dats m) 0 (V0 m) [hostOps1] c main_v17
      = result (m ((c : Thread nD τ).loc main_arg0)) (m ((c : Thread nD τ).loc main_arg1)) := by
  unfold Pipeline.afterTail₀
  show StableHlo.after hostOps1 _ (Proc.devRef .tc main_v17) = _
  after_results
  have hA : Pipeline.withArrays (cfgs 0).spec c (V0 m c) (fun w => (dats m 0 c).arrAt w (cfgs 0).N) (Proc.devRef .tc main_v16)
      = G3 m c := (Pipeline.withArrays_arr spec0 launch0.win.arr_inj c _ _ 4).trans (final m c)
  refine (congrArg (broadcastInDim S1x128x256x256 ![1, 2, 3] bcast_S128x256x256_S1x128x256x256_1_2_3) hA).trans ?_
  funext j
  obtain ⟨u, cc, oh, ow, rfl⟩ : ∃ (u : Fin 1) (cc : Fin 128) (oh ow : Fin 256), j = ix4 u cc oh ow :=
    ⟨j 0, j 1, j 2, j 3, eq_ix4 (n0 := 1) (n1 := 128) (n2 := 256) (n3 := 256) j⟩
  refine (broadcastInDim_apply _ _ (G3 m c) (ix4 u cc oh ow) (ix3 cc oh ow) ?_).trans ?_
  · intro a
    match a with
    | ⟨0, _⟩ => rfl
    | ⟨1, _⟩ => rfl
    | ⟨2, _⟩ => rfl
  · rfl

/-- THE KERNEL PROGRAM'S RUN: every fair execution ends, the result buffer holding the specification's array and the two
    arguments as launched. -/
theorem kernel_run : θ_run (defs (F := Ideal)) (onTc (τ := τ) (main (F := Ideal))) ⟨m, fun _ => 0, ρ⟩ (fun r => ∀ c : Dev nD,
      r.2.mem ((c.tc : Thread nD τ).loc main_v17) = Cert.LocalConv.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v17 (Pipeline.mem_restRefs_of main_v17 (by decide) (by decide))).trans (tail_apply m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (Gen.run_main m ρ)

end Cert.LocalConv.KernelValue

end
-- ==== Proof.lean ====
/-
  The certificate: a per-location 3 × 3 "convolution" with unshared weights, whose reference unfolds the image into
  patches, transposes, and re-reads the flat buffer under a shape that does not undo the transpose.

  That re-reading sends output entry `(c, oh, ow)` to the patch of input channel `ow mod 128` centred at row
  `2 c + oh / 128`, column `2 (oh mod 128) + ow / 128` (Spec.lean works this out and names the result `result`).
  The reference computes `result` by its own text (RefValue.lean: the pad, the nine shifted windows, the two reshapes
  around the transpose read at an index, then a sum of nine products from zero). The kernel never builds the patches: for
  each group of four output channels it loads the ten image rows those channels can touch, shifts them by one column
  either way, interleaves channels and columns once per shift, and accumulates the nine taps (Interleave.lean, Body.lean);
  its host side only prepares the halo rows and moves the tap axis of the weights in front (HostPrefix.lean), and the
  32 output blocks tile the result (KernelValue.lean). Over the extended reals both are the same finite sum of the same
  nine products at every entry — no law beyond commutativity and associativity of addition is used, and the zero border
  annihilates its weight whatever it is —, so the precondition is never opened. The three frames are the generated ones
  (the reference's is its generated run with the result dropped); the idealization rewrote nothing.
-/
import proofs.«168863_j47132971106931_2_alg».proof.Defs
import proofs.«168863_j47132971106931_2_alg».proof.Proof.Gen.Kernel
import proofs.«168863_j47132971106931_2_alg».proof.Proof.Gen.Kernel.Frame
import proofs.«168863_j47132971106931_2_alg».proof.Proof.Gen.KernelIdeal
import proofs.«168863_j47132971106931_2_alg».proof.Proof.Gen.KernelIdeal.Frame
import proofs.«168863_j47132971106931_2_alg».proof.Proof.Gen.ReferenceIdeal
import proofs.«168863_j47132971106931_2_alg».proof.Proof.Gen.ReferenceIdeal.Run
import proofs.«168863_j47132971106931_2_alg».proof.Proof.Gen.ReferenceIdeal.Read
import proofs.«168863_j47132971106931_2_alg».proof.Proof.Gen.Pre_finite_inputs
import proofs.«168863_j47132971106931_2_alg».proof.Proof.Spec
import proofs.«168863_j47132971106931_2_alg».proof.Proof.RefValue
import proofs.«168863_j47132971106931_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's text is the kernel's own: nothing was rewritten. -/
theorem preserves : Cert.preserves_Kernel_KernelIdeal := trivial

/-- Both idealized programs end with the nine-tap sum `Cert.LocalConv.result` of their (agreeing) arguments in the
    result buffer. -/
theorem algebraic : Cert.algebraic_KernelIdeal_ReferenceIdeal := by
  intro m ρ m' ρ' _ hagree
  refine ⟨fun c => Cert.LocalConv.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.LocalConv.KernelValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.LocalConv.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
